-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_2047" .f32 0x3A001002#32 ((1 / 2047 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x64 : Shape := ⟨2, ![768, 64]⟩
abbrev S64 : Shape := ⟨1, ![64]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S768x64 .f32) (main_arg5 : FVec F S64 .f32) (main_arg6 : FVec F S768x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S768x64 .f32 := Host.absf main_arg4
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S768x64 .f32 := Host.absf main_arg6
  let main_cst_10 : FVec F S_ .f32 := constant S_ .f32 0x7F800000#32
  let main_v30 : FVec F S768x64 .f32 := broadcastInDim S768x64 ![] bcast_S_S768x64 main_cst_10
  let main_v31 : IVec S768x64 1 := cmpf .olt main_v29 main_v30
  let main_c_11 : IVec S_ 1 := constantI S_ 1 1#1
  let main_v32 : IVec S_ 1 := (fun x v => Host.reduce IntOp.andi x v reducesTo_S768x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x768 .f32) (main_arg1 : FVec F S8x2048x768 .f32) (main_arg2 : FVec F S768x64 .f32) (main_arg3 : FVec F S64 .f32) (main_arg4 : FVec F S768x64 .f32) (main_arg5 : FVec F S64 .f32) (main_arg6 : FVec F S768x64 .f32) (main_arg7 : FVec F S64 .f32) (main_arg8 : FVec F S64 .f32) (main_arg9 : FVec F S64 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S768x64 .f32 := Host.absf main_arg2
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_c_3 : IVec S_ 1 := constantI S_ 1 1#1
  let main_v12 : IVec S_ 1 := (fun x v => Host.reduce IntOp.andi x v reducesTo_S768x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S8x2048x768 : Shape := ⟨3, ![8, 2048, 768]⟩
abbrev S768x64 : Shape := ⟨2, ![768, 64]⟩
abbrev S64 : Shape := ⟨1, ![64]⟩
abbrev S1x64 : Shape := ⟨2, ![1, 64]⟩
abbrev S8x2048x64 : Shape := ⟨3, ![8, 2048, 64]⟩
abbrev S1x512x768 : Shape := ⟨3, ![1, 512, 768]⟩
abbrev S1x2048x768 : Shape := ⟨3, ![1, 2048, 768]⟩
abbrev S1x512x64 : Shape := ⟨3, ![1, 512, 64]⟩
abbrev S2048x64 : Shape := ⟨2, ![2048, 64]⟩
abbrev S2048x768 : Shape := ⟨2, ![2048, 768]⟩
abbrev S512x768 : Shape := ⟨2, ![512, 768]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S768x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S8x2048x64, .f32⟩
  | .local _ .vmem, ⟨0, _⟩ => ⟨S1x512x768, .f32⟩
  | .local _ .vmem, ⟨1, _⟩ => ⟨S1x512x768, .f32⟩
  | .local _ .vmem, ⟨2, _⟩ => ⟨S1x2048x768, .f32⟩
  | .local _ .vmem, ⟨3, _⟩ => ⟨S768x64, .f32⟩
  | .local _ .vmem, ⟨4, _⟩ => ⟨S1x64, .f32⟩
  | .local _ .vmem, ⟨5, _⟩ => ⟨S768x64, .f32⟩
  | .local _ .vmem, ⟨6, _⟩ => ⟨S1x64, .f32⟩
  | .local _ .vmem, ⟨7, _⟩ => ⟨S768x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x512x64, .f32⟩
  | .local _ .vmem, ⟨12, _⟩ => ⟨S1x512x64, .f32⟩
  | .local _ .vmem, ⟨13, _⟩ => ⟨S2048x64, .f32⟩
  | .local _ .vmem, ⟨14, _⟩ => ⟨S2048x64, .f32⟩
  | .local _ .vmem, ⟨15, _⟩ => ⟨S1x64, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S64_S1x64 : S64.ShapeCasts S1x64
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S64 : S2048x64.Reduces [0] S64
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  broadcasts_S1x64_S512x64 : S1x64.Broadcasts S512x64
  reduces_S512x2048_S512 : S512x2048.Reduces [1] S512
  shapeCasts_S512_S512x1 : S512.ShapeCasts S512x1
  broadcasts_S512x1_S512x2048 : S512x1.Broadcasts S512x2048
  reduces_S512x64_S512 : S512x64.Reduces [1] S512
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x768_S768x64_S2048x64_1_0_0_1_n_n_wf : DotDims.WF S2048x768 S768x64 S2048x64 [1] [0] [0] [1] [] []
  dot_S512x768_S768x64_S512x64_1_0_0_1_n_n_wf : DotDims.WF S512x768 S768x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x2048x768.size a
  hwx0_0 : ∀ i : grid0.Coords, EltTy.bits .f32 = 32 ∨ (Rect.block (s := S8x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x64.size a ≤ S768x64.size a
  hwx0_4 : ∀ i : grid0.Coords, EltTy.bits .f32 = 32 ∨ (Rect.block (s := S768x64) S768x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x64.size a ≤ S768x64.size a
  hwx0_6 : ∀ i : grid0.Coords, EltTy.bits .f32 = 32 ∨ (Rect.block (s := S768x64) S768x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x64.size a ≤ S8x2048x64.size a
  hwx0_10 : ∀ i : grid0.Coords, EltTy.bits .f32 = 32 ∨ (Rect.block (s := S8x2048x64) S1x512x64.size (cc0_transform_10 i) (hinb0_10 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x512x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768x64 : Shape := ⟨2, ![768, 64]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S768x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S8x2048x64, .f32⟩
  | .hbm, ⟨11, _⟩ => ⟨S1x1x64, .f32⟩
  | .hbm, ⟨12, _⟩ => ⟨S8x2048x64, .f32⟩
  | .hbm, ⟨13, _⟩ => ⟨S8x2048x64, .f32⟩
  | .hbm, ⟨14, _⟩ => ⟨S8x2048x64, .f32⟩
  | .hbm, ⟨15, _⟩ => ⟨S1x1x64, .f32⟩
  | .hbm, ⟨16, _⟩ => ⟨S8x2048x64, .f32⟩
  | .hbm, ⟨17, _⟩ => ⟨S8x2048x64, .f32⟩
  | .hbm, ⟨18, _⟩ => ⟨S8x2048x64, .f32⟩
  | .hbm, ⟨19, _⟩ => ⟨S1x1x64, .f32⟩
  | .hbm, ⟨20, _⟩ => ⟨S8x2048x64, .f32⟩
  | .hbm, ⟨21, _⟩ => ⟨S8x2048x64, .f32⟩
  | .hbm, ⟨22, _⟩ => ⟨S8x2048x2048, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S8x2048x64, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .i32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x64, .f32⟩
  | .hbm, ⟨62, _⟩ => ⟨S8x2048x64, .f32⟩
  | .hbm, ⟨63, _⟩ => ⟨S8x2048x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x64, .f32⟩
  | .hbm, ⟨79, _⟩ => ⟨S8x2048x64, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x64, .f32⟩
  | .hbm, ⟨85, _⟩ => ⟨S8x2048x64, .f32⟩
  | .hbm, ⟨86, _⟩ => ⟨S1x1x64, .f32⟩
  | .hbm, ⟨87, _⟩ => ⟨S8x2048x64, .f32⟩
  | .hbm, ⟨88, _⟩ => ⟨S8x2048x64, .f32⟩
  | .hbm, ⟨89, _⟩ => ⟨S1x1x64, .f32⟩
  | .hbm, ⟨90, _⟩ => ⟨S8x2048x64, .f32⟩
  | .hbm, ⟨91, _⟩ => ⟨S8x2048x64, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_cst_3 : Ref sig .tc := ⟨.hbm, 72, rfl⟩
abbrev main_call0_v13 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_7 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x64_S8x2048_d2 : S8x2048x64.ReducesTo [2] S8x2048
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  dot_S8x2048x768_S768x64_S8x2048x64_2_0_01_1_n_n_wf : DotDims.WF S8x2048x768 S768x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x768_S768x64_S8x2048x64_2_0_01_1_n_n : DotDims S8x2048x768 S768x64 S8x2048x64 where
  lhsContracting := [2]
  rhsContracting := [0]
  lhsNonContracting := [0, 1]
  rhsNonContracting := [1]
  lhsBatch := []
  rhsBatch := []
  wf := dot_S8x2048x768_S768x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KPieces.lean ====
/-
  What one grid point of the fused kernel leaves behind, as pure functions of what it loaded.

  The grid is (batch, query chunk). At a batch's first query chunk the body projects the batch's whole x_2 slab to keys
  and values, stores them and the column sums of the values in three scratch buffers, and then computes its output
  block from the chunk of x_1 and from those three just-stored arrays; at a later chunk it computes the same output
  function from the chunk and from what the three scratch buffers already hold, and leaves them as they are.
-/
import proofs.«169590_j231928234285_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first query chunk the key scratch is left holding the key projection of the staged x_2 slab. -/
theorem keys_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x64 .f32) (harg4 : arg4.IsWhole) (arg5 : Memref sig .tc .vmem S1x64 .f32) (harg5 : arg5.IsWhole) (arg6 : Memref sig .tc .vmem S768x64 .f32) (harg6 : arg6.IsWhole) (arg7 : Memref sig .tc .vmem S1x64 .f32) (harg7 : arg7.IsWhole) (arg8 : Memref sig .tc .vmem S768x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x512x64 .f32) (harg12 : arg12.IsWhole) (arg13 : Memref sig .tc .vmem S2048x64 .f32) (harg13 : arg13.IsWhole) (arg14 : Memref sig .tc .vmem S2048x64 .f32) (harg14 : arg14.IsWhole) (arg15 : Memref sig .tc .vmem S1x64 .f32) (harg15 : arg15.IsWhole) (hc0 : cond0_0 i) (x0 : Vec F S1x512x768 .f32) (x1 : Vec F S1x2048x768 .f32) (x2 : Vec F S768x64 .f32) (x3 : Vec F S1x64 .f32) (x4 : Vec F S768x64 .f32) (x5 : Vec F S1x64 .f32) (x6 : Vec F S768x64 .f32) (x7 : Vec F S1x64 .f32) (x8 : Vec F S1x64 .f32) (x9 : Vec F S1x64 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay4 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, View.ld_unit_zero (S := S1x512x768) hz3, View.ld_unit_zero (S := S1x2048x768) hz3, View.ld_unit_zero (S := S768x64) hz2, View.ld_unit_zero (S := S1x64) hz2, View.ld_unit_zero (S := S2048x64) hz2, View.readCov_unit_zero (S := S2048x64) _ hz2, View.readCov_unit_zero (S := S1x64) _ hz2]

/-- … the value scratch the value projection of the slab … -/
theorem values_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x64 .f32) (harg4 : arg4.IsWhole) (arg5 : Memref sig .tc .vmem S1x64 .f32) (harg5 : arg5.IsWhole) (arg6 : Memref sig .tc .vmem S768x64 .f32) (harg6 : arg6.IsWhole) (arg7 : Memref sig .tc .vmem S1x64 .f32) (harg7 : arg7.IsWhole) (arg8 : Memref sig .tc .vmem S768x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x512x64 .f32) (harg12 : arg12.IsWhole) (arg13 : Memref sig .tc .vmem S2048x64 .f32) (harg13 : arg13.IsWhole) (arg14 : Memref sig .tc .vmem S2048x64 .f32) (harg14 : arg14.IsWhole) (arg15 : Memref sig .tc .vmem S1x64 .f32) (harg15 : arg15.IsWhole) (hc0 : cond0_0 i) (x0 : Vec F S1x512x768 .f32) (x1 : Vec F S1x2048x768 .f32) (x2 : Vec F S768x64 .f32) (x3 : Vec F S1x64 .f32) (x4 : Vec F S768x64 .f32) (x5 : Vec F S1x64 .f32) (x6 : Vec F S768x64 .f32) (x7 : Vec F S1x64 .f32) (x8 : Vec F S1x64 .f32) (x9 : Vec F S1x64 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay5 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, View.ld_unit_zero (S := S1x512x768) hz3, View.ld_unit_zero (S := S1x2048x768) hz3, View.ld_unit_zero (S := S768x64) hz2, View.ld_unit_zero (S := S1x64) hz2, View.ld_unit_zero (S := S2048x64) hz2, View.readCov_unit_zero (S := S2048x64) _ hz2, View.readCov_unit_zero (S := S1x64) _ hz2]

/-- … and the third scratch the column sums of the value projection. -/
theorem valueSums_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x64 .f32) (harg4 : arg4.IsWhole) (arg5 : Memref sig .tc .vmem S1x64 .f32) (harg5 : arg5.IsWhole) (arg6 : Memref sig .tc .vmem S768x64 .f32) (harg6 : arg6.IsWhole) (arg7 : Memref sig .tc .vmem S1x64 .f32) (harg7 : arg7.IsWhole) (arg8 : Memref sig .tc .vmem S768x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x512x64 .f32) (harg12 : arg12.IsWhole) (arg13 : Memref sig .tc .vmem S2048x64 .f32) (harg13 : arg13.IsWhole) (arg14 : Memref sig .tc .vmem S2048x64 .f32) (harg14 : arg14.IsWhole) (arg15 : Memref sig .tc .vmem S1x64 .f32) (harg15 : arg15.IsWhole) (hc0 : cond0_0 i) (x0 : Vec F S1x512x768 .f32) (x1 : Vec F S1x2048x768 .f32) (x2 : Vec F S768x64 .f32) (x3 : Vec F S1x64 .f32) (x4 : Vec F S768x64 .f32) (x5 : Vec F S1x64 .f32) (x6 : Vec F S768x64 .f32) (x7 : Vec F S1x64 .f32) (x8 : Vec F S1x64 .f32) (x9 : Vec F S1x64 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay6 x1 x6 x7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, View.ld_unit_zero (S := S1x512x768) hz3, View.ld_unit_zero (S := S1x2048x768) hz3, View.ld_unit_zero (S := S768x64) hz2, View.ld_unit_zero (S := S1x64) hz2, View.ld_unit_zero (S := S2048x64) hz2, View.readCov_unit_zero (S := S2048x64) _ hz2, View.readCov_unit_zero (S := S1x64) _ hz2]

/-- The output block at a batch's first query chunk: the normalised reversed attention of the chunk against the keys,
    values and value sums just computed from the staged slab. -/
theorem out_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x64 .f32) (harg4 : arg4.IsWhole) (arg5 : Memref sig .tc .vmem S1x64 .f32) (harg5 : arg5.IsWhole) (arg6 : Memref sig .tc .vmem S768x64 .f32) (harg6 : arg6.IsWhole) (arg7 : Memref sig .tc .vmem S1x64 .f32) (harg7 : arg7.IsWhole) (arg8 : Memref sig .tc .vmem S768x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x512x64 .f32) (harg12 : arg12.IsWhole) (arg13 : Memref sig .tc .vmem S2048x64 .f32) (harg13 : arg13.IsWhole) (arg14 : Memref sig .tc .vmem S2048x64 .f32) (harg14 : arg14.IsWhole) (arg15 : Memref sig .tc .vmem S1x64 .f32) (harg15 : arg15.IsWhole) (hc0 : cond0_0 i) (x0 : Vec F S1x512x768 .f32) (x1 : Vec F S1x2048x768 .f32) (x2 : Vec F S768x64 .f32) (x3 : Vec F S1x64 .f32) (x4 : Vec F S768x64 .f32) (x5 : Vec F S1x64 .f32) (x6 : Vec F S768x64 .f32) (x7 : Vec F S1x64 .f32) (x8 : Vec F S1x64 .f32) (x9 : Vec F S1x64 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = k0_pay1 (k0_pay7 x0 x2 x3 (k0_pay4 x1 x4 x5) (k0_pay5 x1 x6 x7) (k0_pay6 x1 x6 x7)) (Named.named κ "inv_2047" 0x3A001002#32) x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, View.ld_unit_zero (S := S1x512x768) hz3, View.ld_unit_zero (S := S1x2048x768) hz3, View.ld_unit_zero (S := S768x64) hz2, View.ld_unit_zero (S := S1x64) hz2, View.ld_unit_zero (S := S2048x64) hz2, View.readCov_unit_zero (S := S2048x64) _ hz2, View.readCov_unit_zero (S := S1x64) _ hz2]

/-- The output block at a later query chunk: the same function of the chunk and of what the three scratch buffers hold. -/
theorem out_later (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x64 .f32) (harg4 : arg4.IsWhole) (arg5 : Memref sig .tc .vmem S1x64 .f32) (harg5 : arg5.IsWhole) (arg6 : Memref sig .tc .vmem S768x64 .f32) (harg6 : arg6.IsWhole) (arg7 : Memref sig .tc .vmem S1x64 .f32) (harg7 : arg7.IsWhole) (arg8 : Memref sig .tc .vmem S768x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x512x64 .f32) (harg12 : arg12.IsWhole) (arg13 : Memref sig .tc .vmem S2048x64 .f32) (harg13 : arg13.IsWhole) (arg14 : Memref sig .tc .vmem S2048x64 .f32) (harg14 : arg14.IsWhole) (arg15 : Memref sig .tc .vmem S1x64 .f32) (harg15 : arg15.IsWhole) (hc0 : ¬cond0_0 i) (x0 : Vec F S1x512x768 .f32) (x1 : Vec F S1x2048x768 .f32) (x2 : Vec F S768x64 .f32) (x3 : Vec F S1x64 .f32) (x4 : Vec F S768x64 .f32) (x5 : Vec F S1x64 .f32) (x6 : Vec F S768x64 .f32) (x7 : Vec F S1x64 .f32) (x8 : Vec F S1x64 .f32) (x9 : Vec F S1x64 .f32) (xs0 : Vec F S2048x64 .f32) (xs1 : Vec F S2048x64 .f32) (xs2 : Vec F S1x64 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2
      = k0_pay1 (k0_pay7 x0 x2 x3 xs0 xs1 xs2) (Named.named κ "inv_2047" 0x3A001002#32) x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread, View.ld_unit_zero (S := S1x512x768) hz3, View.ld_unit_zero (S := S1x2048x768) hz3, View.ld_unit_zero (S := S768x64) hz2, View.ld_unit_zero (S := S1x64) hz2, View.ld_unit_zero (S := S2048x64) hz2, View.readCov_unit_zero (S := S2048x64) _ hz2, View.readCov_unit_zero (S := S1x64) _ hz2]

end Cert.KernelIdeal.KPieces
end
-- ==== Proof.KBlocks.lean ====
/-
  What each window's block holds at a grid point, as a function of the argument arrays.

  Grid point t is (batch, query chunk) = (t / 4, t % 4). The x_1 window's block at t is the 512 rows
  512·(t % 4) … of batch t / 4; the x_2 window's block is the whole 2048-row slab of batch t / 4; the three weight
  matrices' blocks are the whole matrices; and the five feature vectors reach the kernel as [1, 64] rows, their blocks
  the whole rows.
-/
import proofs.«169590_j231928234285_2_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ)

/-- The printed index maps over the 32 grid points: the batch is t / 4, the query chunk t % 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_10.index t (0 : Fin 3) = t.val / 4 ∧ win0_10.index t (1 : Fin 3) = t.val % 4 ∧ win0_10.index t (2 : Fin 3) = 0 :=
  (by decide +kernel : ∀ t : Fin grid0.N, _)

theorem idx_facts_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The block of x_1 at batch `b`, query chunk `q`. -/
def x1Block (x : (⟨S8x2048x768, .f32⟩ : BufTy).Contents (Elt Ideal)) (b q : ℕ) (hb : b < 8) (hq : q < 4) : Vec Ideal S1x512x768 .f32 :=
  fun y => x (ix3 (⟨b, hb⟩ : Fin 8) (⟨512 * q + (y 1).val, by have := (y 1).isLt; show 512 * q + (y 1).val < 2048; have : (y 1).val < 512 := (y 1).isLt; omega⟩ : Fin 2048) (⟨(y 2).val, (y 2).isLt⟩ : Fin 768))

/-- The slab of x_2 at batch `b`. -/
def x2Slab (x : (⟨S8x2048x768, .f32⟩ : BufTy).Contents (Elt Ideal)) (b : ℕ) (hb : b < 8) : Vec Ideal S1x2048x768 .f32 :=
  fun y => x (ix3 (⟨b, hb⟩ : Fin 8) (⟨(y 1).val, (y 1).isLt⟩ : Fin 2048) (⟨(y 2).val, (y 2).isLt⟩ : Fin 768))

theorem tdiv (t : Fin cfg0.N) : t.val / 4 < 8 := by have := t.isLt; have hN : cfg0.N = 32 := N_0; omega
theorem tmod (t : Fin cfg0.N) : t.val % 4 < 4 := Nat.mod_lt _ (by decide)

theorem iblk0_eq (c : Dev nD) (t : Fin cfg0.N) :
    (iblk m c 0 t : Vec Ideal S1x512x768 .f32) = x1Block (m ((c : Thread nD τ).loc main_arg0)) (t.val / 4) (t.val % 4) (tdiv t) (tmod t) := by
  obtain ⟨e0, e1, e2, -⟩ := idx_facts t
  funext y
  unfold iblk x1Block
  rw [View.read_apply]
  show V m c main_arg0 _ = _
  rw [V_main_arg0]
  refine congrArg (m ((c : Thread nD τ).loc main_arg0)) (funext fun a => Fin.ext ?_)
  have h0 : (y 0).val < 1 := (y 0).isLt
  match a with
  | ⟨0, _⟩ => show win0_0.index t (0 : Fin 3) * 1 + 1 * (y 0).val = t.val / 4; omega
  | ⟨1, _⟩ => show win0_0.index t (1 : Fin 3) * 512 + 1 * (y 1).val = 512 * (t.val % 4) + (y 1).val; omega
  | ⟨2, _⟩ => show win0_0.index t (2 : Fin 3) * 768 + 1 * (y 2).val = (y 2).val; omega

theorem iblk1_eq (c : Dev nD) (t : Fin cfg0.N) :
    (iblk m c 1 t : Vec Ideal S1x2048x768 .f32) = x2Slab (m ((c : Thread nD τ).loc main_arg1)) (t.val / 4) (tdiv t) := by
  obtain ⟨-, -, -, e0, e1, e2, -⟩ := idx_facts t
  funext y
  unfold iblk x2Slab
  rw [View.read_apply]
  show V m c main_arg1 _ = _
  rw [V_main_arg1]
  refine congrArg (m ((c : Thread nD τ).loc main_arg1)) (funext fun a => Fin.ext ?_)
  have h0 : (y 0).val < 1 := (y 0).isLt
  match a with
  | ⟨0, _⟩ => show win0_1.index t (0 : Fin 3) * 1 + 1 * (y 0).val = t.val / 4; omega
  | ⟨1, _⟩ => show win0_1.index t (1 : Fin 3) * 2048 + 1 * (y 1).val = (y 1).val; omega
  | ⟨2, _⟩ => show win0_1.index t (2 : Fin 3) * 768 + 1 * (y 2).val = (y 2).val; omega

theorem iblk2_eq (c : Dev nD) (t : Fin cfg0.N) :
    (iblk m c 2 t : Vec Ideal S768x64 .f32) = m ((c : Thread nD τ).loc main_arg2) := by
  have e := idx_facts_whole t
  funext y
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 768 + 1 * (y 0).val = (y 0).val; omega
  | ⟨1, _⟩ => show win0_2.index t (1 : Fin 2) * 64 + 1 * (y 1).val = (y 1).val; omega

theorem iblk4_eq (c : Dev nD) (t : Fin cfg0.N) :
    (iblk m c 4 t : Vec Ideal S768x64 .f32) = m ((c : Thread nD τ).loc main_arg4) := by
  have e := idx_facts_whole t
  funext y
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 2) * 768 + 1 * (y 0).val = (y 0).val; omega
  | ⟨1, _⟩ => show win0_4.index t (1 : Fin 2) * 64 + 1 * (y 1).val = (y 1).val; omega

theorem iblk6_eq (c : Dev nD) (t : Fin cfg0.N) :
    (iblk m c 6 t : Vec Ideal S768x64 .f32) = m ((c : Thread nD τ).loc main_arg6) := by
  have e := idx_facts_whole t
  funext y
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 2) * 768 + 1 * (y 0).val = (y 0).val; omega
  | ⟨1, _⟩ => show win0_6.index t (1 : Fin 2) * 64 + 1 * (y 1).val = (y 1).val; omega

/-- The host's reshape before the launch: `main_v0` holds `main_arg3` as a [1, 64] row. -/
theorem V_main_v0 (c : Dev nD) :
    (V m c main_v0 : S1x64.Idx → EReal) = shapeCast S1x64 (m ((c : Thread nD τ).loc main_arg3)) shapeCasts_S64_S1x64 := by
  dsimp only [V, hostOps0]
  after_results
  rfl

theorem iblk3_eq (c : Dev nD) (t : Fin cfg0.N) :
    (iblk m c 3 t : Vec Ideal S1x64 .f32) = shapeCast S1x64 (m ((c : Thread nD τ).loc main_arg3)) shapeCasts_S64_S1x64 := by
  have e := idx_facts_whole t
  funext y
  unfold iblk
  rw [View.read_apply]
  show V m c main_v0 _ = _
  rw [V_main_v0]
  refine congrArg (shapeCast S1x64 (m ((c : Thread nD τ).loc main_arg3)) shapeCasts_S64_S1x64) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The host's reshape before the launch: `main_v1` holds `main_arg5` as a [1, 64] row. -/
theorem V_main_v1 (c : Dev nD) :
    (V m c main_v1 : S1x64.Idx → EReal) = shapeCast S1x64 (m ((c : Thread nD τ).loc main_arg5)) shapeCasts_S64_S1x64 := by
  dsimp only [V, hostOps0]
  after_results
  rfl

theorem iblk5_eq (c : Dev nD) (t : Fin cfg0.N) :
    (iblk m c 5 t : Vec Ideal S1x64 .f32) = shapeCast S1x64 (m ((c : Thread nD τ).loc main_arg5)) shapeCasts_S64_S1x64 := by
  have e := idx_facts_whole t
  funext y
  unfold iblk
  rw [View.read_apply]
  show V m c main_v1 _ = _
  rw [V_main_v1]
  refine congrArg (shapeCast S1x64 (m ((c : Thread nD τ).loc main_arg5)) shapeCasts_S64_S1x64) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The host's reshape before the launch: `main_v2` holds `main_arg7` as a [1, 64] row. -/
theorem V_main_v2 (c : Dev nD) :
    (V m c main_v2 : S1x64.Idx → EReal) = shapeCast S1x64 (m ((c : Thread nD τ).loc main_arg7)) shapeCasts_S64_S1x64 := by
  dsimp only [V, hostOps0]
  after_results
  rfl

theorem iblk7_eq (c : Dev nD) (t : Fin cfg0.N) :
    (iblk m c 7 t : Vec Ideal S1x64 .f32) = shapeCast S1x64 (m ((c : Thread nD τ).loc main_arg7)) shapeCasts_S64_S1x64 := by
  have e := idx_facts_whole t
  funext y
  unfold iblk
  rw [View.read_apply]
  show V m c main_v2 _ = _
  rw [V_main_v2]
  refine congrArg (shapeCast S1x64 (m ((c : Thread nD τ).loc main_arg7)) shapeCasts_S64_S1x64) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- The host's reshape before the launch: `main_v3` holds `main_arg8` as a [1, 64] row. -/
theorem V_main_v3 (c : Dev nD) :
    (V m c main_v3 : S1x64.Idx → EReal) = shapeCast S1x64 (m ((c : Thread nD τ).loc main_arg8)) shapeCasts_S64_S1x64 := by
  dsimp only [V, hostOps0]
  after_results
  rfl

theorem iblk8_eq (c : Dev nD) (t : Fin cfg0.N) :
    (iblk m c 8 t : Vec Ideal S1x64 .f32) = shapeCast S1x64 (m ((c : Thread nD τ).loc main_arg8)) shapeCasts_S64_S1x64 := by
  have e := idx_facts_whole t
  funext y
  unfold iblk
  rw [View.read_apply]
  show V m c main_v3 _ = _
  rw [V_main_v3]
  refine congrArg (shapeCast S1x64 (m ((c : Thread nD τ).loc main_arg8)) shapeCasts_S64_S1x64) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- The host's reshape before the launch: `main_v4` holds `main_arg9` as a [1, 64] row. -/
theorem V_main_v4 (c : Dev nD) :
    (V m c main_v4 : S1x64.Idx → EReal) = shapeCast S1x64 (m ((c : Thread nD τ).loc main_arg9)) shapeCasts_S64_S1x64 := by
  dsimp only [V, hostOps0]
  after_results
  rfl

theorem iblk9_eq (c : Dev nD) (t : Fin cfg0.N) :
    (iblk m c 9 t : Vec Ideal S1x64 .f32) = shapeCast S1x64 (m ((c : Thread nD τ).loc main_arg9)) shapeCasts_S64_S1x64 := by
  have e := idx_facts_whole t
  funext y
  unfold iblk
  rw [View.read_apply]
  show V m c main_v4 _ = _
  rw [V_main_v4]
  refine congrArg (shapeCast S1x64 (m ((c : Thread nD τ).loc main_arg9)) shapeCasts_S64_S1x64) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- Where block `t` of the result array sits: batch t / 4, rows 512·(t % 4) …. -/
theorem out_emb (t : Fin cfg0.N) (j : S1x512x64.Idx) :
    ((cfg0.win 10).blk t).view.emb j = ix3 (⟨t.val / 4, tdiv t⟩ : Fin 8)
      (⟨512 * (t.val % 4) + (j 1).val, by have := tmod t; have : (j 1).val < 512 := (j 1).isLt; omega⟩ : Fin 2048)
      (⟨(j 2).val, (j 2).isLt⟩ : Fin 64) := by
  obtain ⟨-, -, -, -, -, -, e0, e1, e2⟩ := idx_facts t
  funext a; apply Fin.ext
  have h0 : (j 0).val < 1 := (j 0).isLt
  match a with
  | ⟨0, _⟩ => show win0_10.index t (0 : Fin 3) * 1 + 1 * (j 0).val = t.val / 4; omega
  | ⟨1, _⟩ => show win0_10.index t (1 : Fin 3) * 512 + 1 * (j 1).val = 512 * (t.val % 4) + (j 1).val; omega
  | ⟨2, _⟩ => show win0_10.index t (2 : Fin 3) * 64 + 1 * (j 2).val = (j 2).val; omega

end Cert.KernelIdeal.KValue

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.KPayProj.lean ====
/-
  The projection of the x_2 slab, read at an entry.

  At a batch's first query chunk the body casts the staged [1, 2048, 768] slab to a [2048, 768] matrix X and forms
  X · W + bias (the bias row repeated down the rows), once with the key weights and once with the value weights; the
  third array it keeps is the sum of the value projection down each column.
-/
import proofs.«169590_j231928234285_2_alg».proof.Proof.Gen.KernelIdeal.Skeleton
import proofs.«169590_j231928234285_2_alg».proof.Proof.Gen.KernelIdeal
import proofs.«169590_j231928234285_2_alg».proof.Proof.LibPlainMatmul
import proofs.«169590_j231928234285_2_alg».proof.Proof.LibColumnSum
import Idealize.ShloMosaic.Lib.ValueLayout
import Idealize.ShloMosaic.Lib.Pipeline.Value
import Idealize.ShloMosaic.PureOps.Ideal.Laws

open scoped BigOperators

noncomputable section

namespace Cert.KernelIdeal.KPay

open Cert.KernelIdeal Cert.KernelIdeal.Gen Idealize.ShloMosaic Idealize.ShloMosaic.ValueIdx

/-- Entry `(s, c)` of the slab's projection by `W` and the bias row `b`: `∑ d, X(0,s,d) · W(d,c) + b(0,c)`. -/
theorem slabProj_apply (X : FVec Ideal S1x2048x768 .f32) (W : FVec Ideal S768x64 .f32) (b : FVec Ideal S1x64 .f32)
    (s : Fin 2048) (c : Fin 64) :
    k0_pay3 (F := Ideal) X W b (ix2 s c) = (∑ d : Fin 768, X (ix3 (0 : Fin 1) s d) * W (ix2 d c)) + b (ix2 (0 : Fin 1) c) := by
  unfold k0_pay3 k0_pay2
  dsimp only
  rw [shapeCast_self, addf_apply]
  refine congrArg₂ (· + ·) ?_ (broadcastTo_1b_ab_apply b _ s c)
  refine (matmul_plain_zero_apply dot_S2048x768_S768x64_S2048x64_1_0_0_1_n_n.wf none _ _ s c).trans ?_
  refine Finset.sum_congr rfl fun d _ => ?_
  rw [truncf_apply, truncf_apply, shapeCast_1ab_ab_apply]

/-- The key scratch's payload is the same projection (with the key weights). -/
theorem keysPay_apply (X : FVec Ideal S1x2048x768 .f32) (W : FVec Ideal S768x64 .f32) (b : FVec Ideal S1x64 .f32)
    (s : Fin 2048) (c : Fin 64) :
    k0_pay4 (F := Ideal) X W b (ix2 s c) = (∑ d : Fin 768, X (ix3 (0 : Fin 1) s d) * W (ix2 d c)) + b (ix2 (0 : Fin 1) c) := by
  unfold k0_pay4 k0_pay2
  dsimp only
  rw [shapeCast_self, shapeCast_self, addf_apply]
  refine congrArg₂ (· + ·) ?_ (broadcastTo_1b_ab_apply b _ s c)
  refine (matmul_plain_zero_apply dot_S2048x768_S768x64_S2048x64_1_0_0_1_n_n.wf none _ _ s c).trans ?_
  refine Finset.sum_congr rfl fun d _ => ?_
  rw [truncf_apply, truncf_apply, shapeCast_1ab_ab_apply]

/-- The value scratch's payload is the projection with the value weights. -/
theorem valuesPay_apply (X : FVec Ideal S1x2048x768 .f32) (W : FVec Ideal S768x64 .f32) (b : FVec Ideal S1x64 .f32)
    (s : Fin 2048) (c : Fin 64) :
    k0_pay5 (F := Ideal) X W b (ix2 s c) = (∑ d : Fin 768, X (ix3 (0 : Fin 1) s d) * W (ix2 d c)) + b (ix2 (0 : Fin 1) c) := by
  unfold k0_pay5
  rw [shapeCast_self]
  exact slabProj_apply X W b s c

/-- The third scratch's payload at `(0, c)`: the sum over the 2048 rows of the value projection's column `c`. -/
theorem valueSumsPay_apply (X : FVec Ideal S1x2048x768 .f32) (W : FVec Ideal S768x64 .f32) (b : FVec Ideal S1x64 .f32)
    (u : Fin 1) (c : Fin 64) :
    k0_pay6 (F := Ideal) X W b (ix2 u c) = ∑ s : Fin 2048, k0_pay3 (F := Ideal) X W b (ix2 s c) := by
  unfold k0_pay6
  dsimp only
  rw [shapeCast_self, shapeCast_a_1a_apply]
  exact multiReduction_add_cols_apply (k0_pay3 (F := Ideal) X W b) 0x00000000#32 reduces_S2048x64_S64 (.inl rfl) rfl c

end Cert.KernelIdeal.KPay

end
-- ==== Proof.Spec.lean ====
/-
  The mathematics of the fused cross-attention block, as functions on the extended reals.

  One token row of x times a 768 x 64 matrix plus a bias gives its query (from x_1) or its key and value (from x_2).
  A query row i of batch b is scored against every key row s by the dot product over the 64 features, scaled by 1/8;
  the scores of a row become softmax weights w(s); the "reversed" attention of the row is the v-rows combined with
  the weights (1 - w(s)) / 2047; and the row is then normalised over its 64 features (mean, variance, rsqrt) and scaled
  and shifted by gamma and beta.

  Two spellings of that block are defined here, each in the order one of the two programs computes it:
  `kernelOut` scales the scores by the word 0.125, computes sum_s v(s) - sum_s w(s) v(s) and multiplies by 1/2047;
  `refOut` divides the scores by sqrt 64, and combines the v-rows with (1 - w(s)) / 2047 directly.
  They agree on finite inputs (module Algebra).
-/
import Idealize.ShloMosaic.PureOps.Ideal
import Idealize.ShloMosaic.Lib.ValueIdx

open scoped BigOperators

noncomputable section

namespace Cert.CrossAttn

open Idealize.ShloMosaic Idealize.ShloMosaic.ValueIdx

/-- An activation array `[8, 2048, 768]`, a weight matrix `[768, 64]`, a feature vector `[64]`, the result `[8, 2048, 64]`. -/
abbrev Act := (⟨3, ![8, 2048, 768]⟩ : Shape).Idx → EReal
abbrev Wgt := (⟨2, ![768, 64]⟩ : Shape).Idx → EReal
abbrev Vec64 := (⟨1, ![64]⟩ : Shape).Idx → EReal
abbrev Out := (⟨3, ![8, 2048, 64]⟩ : Shape).Idx → EReal

/-- Token `(b, s)` of `x` projected: feature `c` is `∑ d, x(b,s,d) · w(d,c)` plus the bias at `c`. -/
def proj (x : Act) (w : Wgt) (bias : Vec64) (b : Fin 8) (s : Fin 2048) (c : Fin 64) : EReal :=
  (∑ d : Fin 768, x (ix3 b s d) * w (ix2 d c)) + bias (ix1 c)

/-- The dot product over the 64 features of query row `i` and key row `s`. -/
def dots (q k : Fin 2048 → Fin 64 → EReal) (i s : Fin 2048) : EReal := ∑ c : Fin 64, q i c * k s c

/-- The largest score of a row (the fold of `max` from `-∞`). -/
def rowMax (sc : Fin 2048 → EReal) : EReal := (Finset.univ : Finset (Fin 2048)).fold max ⊥ sc

/-- The softmax weight of position `s` in a row of scores: `exp (sc s - max) / ∑ s', exp (sc s' - max)`. -/
def softmax (sc : Fin 2048 → EReal) (s : Fin 2048) : EReal :=
  Ideal.div (Ideal.exp (sc s - rowMax sc)) (∑ s' : Fin 2048, Ideal.exp (sc s' - rowMax sc))

/-- The mean of a row of 64 features, `n` the word for 64. -/
def mean64 (a : Fin 64 → EReal) (n : EReal) : EReal := Ideal.div (∑ c : Fin 64, a c) n

/-- Layer normalisation of a row `a` of 64 features at feature `c`: `(a c - μ) · rsqrt (var + eps) · g + be`, with
    `μ` the mean and `var` the mean of the squared deviations, `n` the word for 64. -/
def layerNorm (a : Fin 64 → EReal) (n eps g be : EReal) (c : Fin 64) : EReal :=
  (a c - mean64 a n) * Ideal.rsqrt (mean64 (fun c' => (a c' - mean64 a n) * (a c' - mean64 a n)) n + eps) * g + be

/-- The words both programs share: 64.0 and the epsilon 9.99999974e-6. -/
def w64 : EReal := Ideal.ofBits .f32 0x42800000#32
def wEps : EReal := Ideal.ofBits .f32 0x3727C5AC#32

/-! ## The kernel's order of computation -/

/-- The kernel's scores: the dot products times the word 0.125. -/
def kScores (q k : Fin 2048 → Fin 64 → EReal) (i s : Fin 2048) : EReal :=
  dots q k i s * Ideal.ofBits .f32 0x3E000000#32

/-- The kernel's reversed attention of row `i`: `(∑ s, v s c - ∑ s, w s · v s c) · (1/2047)`. -/
def kAttn (q k v : Fin 2048 → Fin 64 → EReal) (i : Fin 2048) (c : Fin 64) : EReal :=
  ((∑ s : Fin 2048, v s c) - ∑ s : Fin 2048, softmax (kScores q k i) s * v s c) * ((1 / 2047 : ℝ) : EReal)

/-- The kernel's result at `(b, i, c)`. -/
def kernelOut (x1 x2 : Act) (wq : Wgt) (bq : Vec64) (wk : Wgt) (bk : Vec64) (wv : Wgt) (bv g be : Vec64) : Out :=
  fun j => layerNorm (kAttn (proj x1 wq bq (j 0)) (proj x2 wk bk (j 0)) (proj x2 wv bv (j 0)) (j 1)) w64 wEps
    (g (ix1 (j 2))) (be (ix1 (j 2))) (j 2)

/-! ## The reference's order of computation -/

/-- The reference's scores: the dot products divided by `sqrt 64`. -/
def rScores (q k : Fin 2048 → Fin 64 → EReal) (i s : Fin 2048) : EReal :=
  Ideal.div (dots q k i s) (Ideal.sqrt (Ideal.ofBits .f32 0x42800000#32))

/-- The reference's reversed attention of row `i`: `∑ s, ((1 - w s) / 2047) · v s c`. -/
def rAttn (q k v : Fin 2048 → Fin 64 → EReal) (i : Fin 2048) (c : Fin 64) : EReal :=
  ∑ s : Fin 2048, Ideal.div (Ideal.ofBits .f32 0x3F800000#32 - softmax (rScores q k i) s) (Ideal.ofBits .f32 0x44FFE000#32) * v s c

/-- The reference's result at `(b, i, c)`. -/
def refOut (x1 x2 : Act) (wq : Wgt) (bq : Vec64) (wk : Wgt) (bk : Vec64) (wv : Wgt) (bv g be : Vec64) : Out :=
  fun j => layerNorm (rAttn (proj x1 wq bq (j 0)) (proj x2 wk bk (j 0)) (proj x2 wv bv (j 0)) (j 1)) w64 wEps
    (g (ix1 (j 2))) (be (ix1 (j 2))) (j 2)

end Cert.CrossAttn

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.AlgConsts.lean ====
/-
  The float words the two spellings of the block use, as the extended reals their bit patterns denote:
  0.125 = 2^(-3), 64 = 2^6, 1 = 2^0 and 2047 = (2^23 + 0x7FE000) · 2^(10-23); and the square root of the word 64,
  which is the real 8 = sqrt (8^2).
-/
import Idealize.ShloMosaic.PureOps.Ideal
import proofs.«169590_j231928234285_2_alg».proof.Proof.LibFiniteEntry

noncomputable section

namespace Cert.CrossAttn

open Idealize.ShloMosaic

/-- The word `0.125` denotes the real `1/8`. -/
theorem ofBits_eighth : Ideal.ofBits .f32 0x3E000000#32 = ((1 / 8 : ℝ) : EReal) := by
  simp [Ideal.ofBits, Ideal.ieee, -EReal.coe_mul]; norm_num

/-- The word `64.0` denotes the real `64`. -/
theorem ofBits_64 : Ideal.ofBits .f32 0x42800000#32 = ((64 : ℝ) : EReal) := by
  simp [Ideal.ofBits, Ideal.ieee, -EReal.coe_mul]; norm_num

/-- The word `1.0` denotes the real `1`. -/
theorem ofBits_one : Ideal.ofBits .f32 0x3F800000#32 = ((1 : ℝ) : EReal) := by
  simp [Ideal.ofBits, Ideal.ieee, -EReal.coe_mul]; norm_num

/-- The word `2047.0` denotes the real `2047`. -/
theorem ofBits_2047 : Ideal.ofBits .f32 0x44FFE000#32 = ((2047 : ℝ) : EReal) := by
  simp [Ideal.ofBits, Ideal.ieee, -EReal.coe_mul]; norm_num

/-- The square root of the word `64.0` is the real `8`. -/
theorem sqrt_ofBits_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

end Cert.CrossAttn

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«169590_j231928234285_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPaySoftmax.lean ====
/-
  The softmax of a score matrix's rows, as the kernel body computes it, read at an entry.

  For a [512, 2048] matrix S of scores the body takes each row's maximum (a fold of max from the word for -∞), subtracts
  it, exponentiates, sums each row of exponentials, and divides: entry (i, s) of the result is the softmax weight of
  position s in row i of S.
-/
import proofs.«169590_j231928234285_2_alg».proof.Proof.Gen.KernelIdeal.Skeleton
import proofs.«169590_j231928234285_2_alg».proof.Proof.Gen.KernelIdeal
import proofs.«169590_j231928234285_2_alg».proof.Proof.Spec
import proofs.«169590_j231928234285_2_alg».proof.Proof.AlgConsts
import proofs.«169590_j231928234285_2_alg».proof.Proof.LibLaneMax
import proofs.«169590_j231928234285_2_alg».proof.Proof.LibColumnCast
import proofs.«169590_j231928234285_2_alg».proof.Proof.LibColumnBroadcast
import Idealize.ShloMosaic.Lib.ValueLayout
import Idealize.ShloMosaic.Lib.Pipeline.Value
import Idealize.ShloMosaic.PureOps.Ideal.Laws

open scoped BigOperators

noncomputable section

namespace Cert.KernelIdeal.KPay

open Cert.KernelIdeal Cert.KernelIdeal.Gen Idealize.ShloMosaic Idealize.ShloMosaic.ValueIdx

/-- The word `0xFF800000` is `-∞`, the bottom of the extended reals. -/
theorem negInf_word : FloatOps.ofBits (F := Ideal) .f32 0xFF800000#32 = (⊥ : EReal) := by
  simp [Ideal.ofBits, Ideal.ieee]

/-- Each row's maximum, repeated along the row. -/
abbrev rowMaxMat (S : FVec Ideal S512x2048 .f32) : FVec Ideal S512x2048 .f32 :=
  broadcastTo S512x2048 (shapeCast S512x1 (multiReduction .maximumf [1] S512 S 0xFF800000#32 reduces_S512x2048_S512 (.inl rfl) rfl) shapeCasts_S512_S512x1) broadcasts_S512x1_S512x2048

/-- The exponentials of the scores less their row's maximum. -/
abbrev expMat (S : FVec Ideal S512x2048 .f32) : FVec Ideal S512x2048 .f32 := exp (subf S (rowMaxMat S))

/-- Each row's sum, repeated along the row. -/
abbrev rowSumMat (E : FVec Ideal S512x2048 .f32) : FVec Ideal S512x2048 .f32 :=
  broadcastTo S512x2048 (shapeCast S512x1 (multiReduction .add [1] S512 E 0x00000000#32 reduces_S512x2048_S512 (.inl rfl) rfl) shapeCasts_S512_S512x1) broadcasts_S512x1_S512x2048

theorem rowMaxMat_apply (S : FVec Ideal S512x2048 .f32) (i : Fin 512) (s : Fin 2048) :
    rowMaxMat S (ix2 i s) = Cert.CrossAttn.rowMax (fun s' => S (ix2 i s')) := by
  unfold rowMaxMat Cert.CrossAttn.rowMax
  rw [broadcastTo_a1_ab_apply, shapeCast_a_a1_apply]
  refine (multiReduction_maximumf_rows_apply S 0xFF800000#32 reduces_S512x2048_S512 (.inl rfl) rfl i).trans ?_
  rw [negInf_word]

theorem expMat_apply (S : FVec Ideal S512x2048 .f32) (i : Fin 512) (s : Fin 2048) :
    expMat S (ix2 i s) = Ideal.exp (S (ix2 i s) - Cert.CrossAttn.rowMax (fun s' => S (ix2 i s'))) := by
  show FloatOps.exp (subf S (rowMaxMat S) (ix2 i s)) = _
  rw [Ideal.exp_def, subf_apply, rowMaxMat_apply]

theorem rowSumMat_apply (E : FVec Ideal S512x2048 .f32) (i : Fin 512) (s : Fin 2048) :
    rowSumMat E (ix2 i s) = ∑ s' : Fin 2048, E (ix2 i s') := by
  unfold rowSumMat
  rw [broadcastTo_a1_ab_apply, shapeCast_a_a1_apply]
  exact multiReduction_add_rows_apply E 0x00000000#32 reduces_S512x2048_S512 (.inl rfl) rfl i

/-- Entry `(i, s)` of the normalised exponentials is the softmax weight of position `s` in row `i`. -/
theorem softmaxRows_apply (S : FVec Ideal S512x2048 .f32) (i : Fin 512) (s : Fin 2048) :
    divf (expMat S) (rowSumMat (expMat S)) (ix2 i s) = Cert.CrossAttn.softmax (fun s' => S (ix2 i s')) s := by
  rw [divf_apply, rowSumMat_apply, expMat_apply]
  unfold Cert.CrossAttn.softmax
  exact congrArg (Ideal.div _) (Finset.sum_congr rfl fun s' _ => expMat_apply S i s')

end Cert.KernelIdeal.KPay

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.KPayAttn.lean ====
/-
  The kernel body's unnormalised reversed attention of a query chunk, read at an entry.

  From the staged chunk of x_1 the body forms the chunk's queries Q = X · Wq + bq, scores them against the 2048 keys it
  is given (Q · Kᵀ, times the word 0.125), turns each row of scores into softmax weights, and subtracts the weighted
  combination of the value rows from the row of value sums it is given: entry (i, c) is
  VS(c) - ∑ s, w_i(s) · V(s, c).
-/
import proofs.«169590_j231928234285_2_alg».proof.Proof.Gen.KernelIdeal.Skeleton
import proofs.«169590_j231928234285_2_alg».proof.Proof.Gen.KernelIdeal
import proofs.«169590_j231928234285_2_alg».proof.Proof.KPaySoftmax
import proofs.«169590_j231928234285_2_alg».proof.Proof.LibPlainMatmul
import proofs.«169590_j231928234285_2_alg».proof.Proof.LibMatmulRowsByRows
import Idealize.ShloMosaic.Lib.ValueLayout
import Idealize.ShloMosaic.Lib.Pipeline.Value
import Idealize.ShloMosaic.PureOps.Ideal.Laws

open scoped BigOperators

noncomputable section

namespace Cert.KernelIdeal.KPay

open Cert.KernelIdeal Cert.KernelIdeal.Gen Idealize.ShloMosaic Idealize.ShloMosaic.ValueIdx

/-- Entry `(i, c)` of the chunk's value sums less its attention output. -/
theorem attnPay_apply (X0 : FVec Ideal S1x512x768 .f32) (Wq : FVec Ideal S768x64 .f32) (bq : FVec Ideal S1x64 .f32)
    (K V : FVec Ideal S2048x64 .f32) (VS : FVec Ideal S1x64 .f32) (i : Fin 512) (c : Fin 64) :
    k0_pay7 (F := Ideal) X0 Wq bq K V VS (ix2 i c)
      = VS (ix2 (0 : Fin 1) c) - ∑ s : Fin 2048,
          Cert.CrossAttn.softmax (fun s' => (∑ c' : Fin 64, ((∑ d : Fin 768, X0 (ix3 (0 : Fin 1) i d) * Wq (ix2 d c'))
            + bq (ix2 (0 : Fin 1) c')) * K (ix2 s' c')) * Ideal.ofBits .f32 0x3E000000#32) s * V (ix2 s c) := by
  unfold k0_pay7
  dsimp only
  rw [subf_apply]
  refine congrArg₂ (· - ·) (broadcastTo_1b_ab_apply VS _ i c) ?_
  refine (matmul_plain_zero_apply dot_S512x2048_S2048x64_S512x64_1_0_0_1_n_n.wf none _ _ i c).trans ?_
  refine Finset.sum_congr rfl fun s _ => ?_
  rw [truncf_apply, truncf_apply]
  refine congrArg (· * V (ix2 s c)) ?_
  refine (softmaxRows_apply _ i s).trans ?_
  refine congrArg (fun f => Cert.CrossAttn.softmax f s) (funext fun s' => ?_)
  rw [mulf_apply, broadcast_apply]
  refine congrArg₂ (· * ·) ?_ rfl
  refine (matmul_rows_rows_apply dot_S512x64_S2048x64_S512x2048_1_1_0_0_n_n.wf none _ _ i s').trans ?_
  refine Finset.sum_congr rfl fun c' _ => ?_
  rw [truncf_apply, truncf_apply, addf_apply]
  refine congrArg (· * K (ix2 s' c')) ?_
  refine congrArg₂ (· + ·) ?_ ?_
  · refine (matmul_plain_zero_apply dot_S512x768_S768x64_S512x64_1_0_0_1_n_n.wf none _ _ i c').trans ?_
    refine Finset.sum_congr rfl fun d _ => ?_
    rw [truncf_apply, truncf_apply, shapeCast_1ab_ab_apply]
  · rw [shapeCast_self]
    exact broadcastTo_1b_ab_apply bq _ i c'

end Cert.KernelIdeal.KPay

end
-- ==== Proof.KPayNorm.lean ====
/-
  The kernel body's normalisation of a chunk of rows, read at an entry.

  Given a [512, 64] matrix A and a scalar the body scales A by the scalar, and normalises each row of the result over
  its 64 features: the row's mean (its sum over 64), the deviations, the mean of their squares, rsqrt of that plus the
  epsilon word, then gamma and beta along the features.
-/
import proofs.«169590_j231928234285_2_alg».proof.Proof.Gen.KernelIdeal.Skeleton
import proofs.«169590_j231928234285_2_alg».proof.Proof.Gen.KernelIdeal
import proofs.«169590_j231928234285_2_alg».proof.Proof.Spec
import proofs.«169590_j231928234285_2_alg».proof.Proof.LibLaneSum
import proofs.«169590_j231928234285_2_alg».proof.Proof.LibColumnCast
import proofs.«169590_j231928234285_2_alg».proof.Proof.LibColumnBroadcast
import Idealize.ShloMosaic.Lib.ValueLayout
import Idealize.ShloMosaic.Lib.Pipeline.Value
import Idealize.ShloMosaic.PureOps.Ideal.Laws

open scoped BigOperators

noncomputable section

namespace Cert.KernelIdeal.KPay

open Cert.KernelIdeal Cert.KernelIdeal.Gen Idealize.ShloMosaic Idealize.ShloMosaic.ValueIdx

/-- Each row's mean over its 64 features, as a one-column matrix. -/
abbrev meanCol (M : FVec Ideal S512x64 .f32) : FVec Ideal S512x1 .f32 :=
  divf (shapeCast S512x1 (multiReduction .add [1] S512 M 0x00000000#32 reduces_S512x64_S512 (.inl rfl) rfl) shapeCasts_S512_S512x1)
    (broadcast S512x1 (Scalar.ofBits (F := Ideal) .f32 0x42800000#32))

theorem meanCol_apply (M : FVec Ideal S512x64 .f32) (i : Fin 512) (u : Fin 1) :
    meanCol M (ix2 i u) = Cert.CrossAttn.mean64 (fun c' => M (ix2 i c')) Cert.CrossAttn.w64 := by
  unfold meanCol Cert.CrossAttn.mean64 Cert.CrossAttn.w64
  rw [divf_apply, shapeCast_a_a1_apply, broadcast_apply]
  exact congrArg (fun x => Ideal.div x _) (multiReduction_add_rows_apply M 0x00000000#32 reduces_S512x64_S512 (.inl rfl) rfl i)

/-- Entry `(0, i, c)` of the output block: row `i` of `A` scaled by `inv`, layer-normalised, at feature `c`. -/
theorem normPay_apply (A : FVec Ideal S512x64 .f32) (inv : EReal) (g be : FVec Ideal S1x64 .f32)
    (u : Fin 1) (i : Fin 512) (c : Fin 64) :
    k0_pay1 (F := Ideal) A inv g be (ix3 u i c)
      = Cert.CrossAttn.layerNorm (fun c' => A (ix2 i c') * inv) Cert.CrossAttn.w64 Cert.CrossAttn.wEps
          (g (ix2 (0 : Fin 1) c)) (be (ix2 (0 : Fin 1) c)) c := by
  unfold k0_pay1
  dsimp only
  have hrow : ∀ c' : Fin 64, mulf A (broadcast S512x64 inv) (ix2 i c') = A (ix2 i c') * inv := fun c' => by
    rw [mulf_apply, broadcast_apply]
  have hmean : meanCol (mulf A (broadcast S512x64 inv)) (ix2 i (0 : Fin 1))
      = Cert.CrossAttn.mean64 (fun c' => A (ix2 i c') * inv) Cert.CrossAttn.w64 :=
    (meanCol_apply _ i 0).trans (congrArg (fun f => Cert.CrossAttn.mean64 f Cert.CrossAttn.w64) (funext hrow))
  have hdev : ∀ c' : Fin 64, subf (mulf A (broadcast S512x64 inv))
        (broadcastTo S512x64 (meanCol (mulf A (broadcast S512x64 inv))) broadcasts_S512x1_S512x64) (ix2 i c')
      = A (ix2 i c') * inv - Cert.CrossAttn.mean64 (fun c'' => A (ix2 i c'') * inv) Cert.CrossAttn.w64 := fun c' => by
    rw [subf_apply, broadcastTo_a1_ab_apply, hmean, hrow]
  rw [shapeCast_ab_1ab_apply, addf_apply, mulf_apply, mulf_apply, shapeCast_self, shapeCast_self,
    broadcastTo_1b_ab_apply, broadcastTo_1b_ab_apply, broadcastTo_a1_ab_apply]
  unfold Cert.CrossAttn.layerNorm
  refine congrArg₂ (· + ·) (congrArg₂ (· * ·) (congrArg₂ (· * ·) (hdev c) ?_) rfl) rfl
  show FloatOps.rsqrt (addf _ _ (ix2 i (0 : Fin 1))) = _
  rw [Ideal.rsqrt_def, addf_apply, broadcast_apply]
  refine congrArg Ideal.rsqrt (congrArg₂ (· + ·) ?_ rfl)
  refine (meanCol_apply _ i 0).trans (congrArg (fun f => Cert.CrossAttn.mean64 f Cert.CrossAttn.w64) (funext fun c' => ?_))
  rw [mulf_apply, hdev]

end Cert.KernelIdeal.KPay

end
-- ==== Proof.KValue.lean ====
/-
  The idealized kernel's result array, as one function of the argument arrays.

  The three scratch buffers are refilled at each batch's first query chunk and left alone at the later ones, so after any
  grid point t they hold the key projection, the value projection and the value column sums of batch t / 4's slab of
  x_2 (by induction on the point). Hence what every point writes back is the normalised reversed attention of its 512
  query rows against its own batch's keys and values; the 32 blocks tile the result array, which therefore holds the
  block's mathematics (module Spec, `kernelOut`) at every index.
-/
import proofs.«169590_j231928234285_2_alg».proof.Proof.Gen.KernelIdeal.Value
import proofs.«169590_j231928234285_2_alg».proof.Proof.KPieces
import proofs.«169590_j231928234285_2_alg».proof.Proof.KBlocks
import proofs.«169590_j231928234285_2_alg».proof.Proof.KPayProj
import proofs.«169590_j231928234285_2_alg».proof.Proof.KPayAttn
import proofs.«169590_j231928234285_2_alg».proof.Proof.KPayNorm
import proofs.«169590_j231928234285_2_alg».proof.Proof.Spec
import Idealize.ShloMosaic.PureOps.IdealRules

open scoped BigOperators

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Idealize.ShloMosaic.ValueIdx

variable (m : (ℓ : Loc nD τ sig) → Buf (Elt Ideal) ℓ) (ρ : Dev nD → PrngReg)

/-- A feature vector as the [1, 64] row the kernel is handed. -/
abbrev rowOf (a : (⟨S64, .f32⟩ : BufTy).Contents (Elt Ideal)) : FVec Ideal S1x64 .f32 := shapeCast S1x64 a shapeCasts_S64_S1x64

theorem rowOf_apply (a : (⟨S64, .f32⟩ : BufTy).Contents (Elt Ideal)) (u : Fin 1) (c : Fin 64) : rowOf a (ix2 u c) = a (ix1 c) :=
  shapeCast_a_1a_apply a _ u c

/-- The key projection, the value projection and the value column sums of batch `b`'s slab of x_2. -/
def keysOf (c : Dev nD) (b : ℕ) (hb : b < 8) : FVec Ideal S2048x64 .f32 :=
  k0_pay4 (F := Ideal) (x2Slab (m ((c : Thread nD τ).loc main_arg1)) b hb) (m ((c : Thread nD τ).loc main_arg4)) (rowOf (m ((c : Thread nD τ).loc main_arg5)))
def valuesOf (c : Dev nD) (b : ℕ) (hb : b < 8) : FVec Ideal S2048x64 .f32 :=
  k0_pay5 (F := Ideal) (x2Slab (m ((c : Thread nD τ).loc main_arg1)) b hb) (m ((c : Thread nD τ).loc main_arg6)) (rowOf (m ((c : Thread nD τ).loc main_arg7)))
def valueSumsOf (c : Dev nD) (b : ℕ) (hb : b < 8) : FVec Ideal S1x64 .f32 :=
  k0_pay6 (F := Ideal) (x2Slab (m ((c : Thread nD τ).loc main_arg1)) b hb) (m ((c : Thread nD τ).loc main_arg6)) (rowOf (m ((c : Thread nD τ).loc main_arg7)))

/-- At a batch's first query chunk the three scratch buffers are left holding that batch's three arrays. -/
theorem scratch_first (c : Dev nD) (t : Fin cfg0.N) (h0 : t.val % 4 = 0) (b : ℕ) (hb : b < 8) (hbt : b = t.val / 4) :
    (outsAt0 m c t.val t.isLt).2.1 = keysOf m c b hb ∧ (outsAt0 m c t.val t.isLt).2.2.1 = valuesOf m c b hb
      ∧ (outsAt0 m c t.val t.isLt).2.2.2 = valueSumsOf m c b hb := by
  subst hbt
  rw [outsAt0_A m c t h0]
  dsimp only
  refine ⟨(KPieces.keys_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_, (KPieces.values_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_,
    (KPieces.valueSums_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_⟩
  · unfold keysOf rowOf; rw [iblk1_eq, iblk4_eq, iblk5_eq]
  · unfold valuesOf rowOf; rw [iblk1_eq, iblk6_eq, iblk7_eq]
  · unfold valueSumsOf rowOf; rw [iblk1_eq, iblk6_eq, iblk7_eq]

/-- At a later query chunk they hold what the point before left. -/
theorem scratch_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1
      ∧ (outsAt0 m c t.val t.isLt).2.2.1 = (outsAt0 m c (t.val - 1) (Nat.lt_of_le_of_lt (Nat.sub_le _ _) t.isLt)).2.2.1
      ∧ (outsAt0 m c t.val t.isLt).2.2.2 = (outsAt0 m c (t.val - 1) (Nat.lt_of_le_of_lt (Nat.sub_le _ _) t.isLt)).2.2.2 := by
  rw [outsAt0_B m c t h0]
  exact ⟨rfl, rfl, rfl⟩

/-- So after ANY point `n` they hold batch `n / 4`'s three arrays. -/
theorem scratch_at (c : Dev nD) : ∀ (n : ℕ) (hn : n < cfg0.N) (b : ℕ) (hb : b < 8), b = n / 4 →
    (outsAt0 m c n hn).2.1 = keysOf m c b hb ∧ (outsAt0 m c n hn).2.2.1 = valuesOf m c b hb
      ∧ (outsAt0 m c n hn).2.2.2 = valueSumsOf m c b hb := by
  intro n
  induction n with
  | zero => intro hn b hb hbn; exact scratch_first m c ⟨0, hn⟩ (Nat.zero_mod 4) b hb hbn
  | succ k ih =>
    intro hn b hb hbn
    by_cases h0 : (k + 1) % 4 = 0
    · exact scratch_first m c ⟨k + 1, hn⟩ h0 b hb hbn
    · obtain ⟨e0, e1, e2⟩ := scratch_later m c ⟨k + 1, hn⟩ h0
      have ihk := ih (Nat.lt_of_succ_lt hn) b hb (by omega)
      exact ⟨e0.trans ihk.1, e1.trans ihk.2.1, e2.trans ihk.2.2⟩

/-- What point `t` leaves in the output's staging buffer: the body's output function of the point's chunk of x_1
    and of its batch's three arrays. -/
theorem outBlock_eq (c : Dev nD) (t : Fin cfg0.N) :
    (outsAt0 m c t.val t.isLt).1
      = k0_pay1 (F := Ideal) (k0_pay7 (F := Ideal) (x1Block (m ((c : Thread nD τ).loc main_arg0)) (t.val / 4) (t.val % 4) (tdiv t) (tmod t))
          (m ((c : Thread nD τ).loc main_arg2)) (rowOf (m ((c : Thread nD τ).loc main_arg3)))
          (keysOf m c (t.val / 4) (tdiv t)) (valuesOf m c (t.val / 4) (tdiv t)) (valueSumsOf m c (t.val / 4) (tdiv t)))
        (Named.named (F := Ideal) κ "inv_2047" 0x3A001002#32)
        (rowOf (m ((c : Thread nD τ).loc main_arg8))) (rowOf (m ((c : Thread nD τ).loc main_arg9))) := by
  by_cases h0 : t.val % 4 = 0
  · rw [outsAt0_A m c t h0]
    dsimp only
    refine (KPieces.out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_
    unfold keysOf valuesOf valueSumsOf rowOf
    rw [iblk0_eq, iblk1_eq, iblk2_eq, iblk3_eq, iblk4_eq, iblk5_eq, iblk6_eq, iblk7_eq, iblk8_eq, iblk9_eq]
  · have hN : cfg0.N = 32 := N_0
    have hlt : t.val - 1 < cfg0.N := Nat.lt_of_le_of_lt (Nat.sub_le _ _) t.isLt
    have hs := scratch_at m c (t.val - 1) hlt (t.val / 4) (tdiv t) (by omega)
    rw [outsAt0_B m c t h0]
    dsimp only
    refine (KPieces.out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    rw [hs.1, hs.2.1, hs.2.2]
    unfold rowOf
    rw [iblk0_eq, iblk2_eq, iblk3_eq, iblk8_eq, iblk9_eq]

/-! ## The block's mathematics -/

section
open Cert.CrossAttn

/-- The named reciprocal is 1/2047 at the extended reals. -/
theorem inv_2047 : Named.named (F := Ideal) κ "inv_2047" (φ := .f32) 0x3A001002#32 = ((1 / 2047 : ℝ) : EReal) :=
  IdealRules.named_const.ideal_named_scalar _ _ _ _ rfl

theorem keysOf_apply (c : Dev nD) (b : ℕ) (hb : b < 8) (s : Fin 2048) (c' : Fin 64) :
    keysOf m c b hb (ix2 s c') = proj (m ((c : Thread nD τ).loc main_arg1)) (m ((c : Thread nD τ).loc main_arg4))
      (m ((c : Thread nD τ).loc main_arg5)) ⟨b, hb⟩ s c' := by
  unfold keysOf
  rw [KPay.keysPay_apply, rowOf_apply]
  rfl

theorem valuesOf_apply (c : Dev nD) (b : ℕ) (hb : b < 8) (s : Fin 2048) (c' : Fin 64) :
    valuesOf m c b hb (ix2 s c') = proj (m ((c : Thread nD τ).loc main_arg1)) (m ((c : Thread nD τ).loc main_arg6))
      (m ((c : Thread nD τ).loc main_arg7)) ⟨b, hb⟩ s c' := by
  unfold valuesOf
  rw [KPay.valuesPay_apply, rowOf_apply]
  rfl

theorem valueSumsOf_apply (c : Dev nD) (b : ℕ) (hb : b < 8) (u : Fin 1) (c' : Fin 64) :
    valueSumsOf m c b hb (ix2 u c') = ∑ s : Fin 2048, proj (m ((c : Thread nD τ).loc main_arg1)) (m ((c : Thread nD τ).loc main_arg6))
      (m ((c : Thread nD τ).loc main_arg7)) ⟨b, hb⟩ s c' := by
  unfold valueSumsOf
  rw [KPay.valueSumsPay_apply]
  refine Finset.sum_congr rfl fun s _ => ?_
  rw [KPay.slabProj_apply, rowOf_apply]
  rfl

/-- Entry `(0, i, cc)` of what point `t` writes back is the block's mathematics at batch `t / 4`, row `512·(t % 4) + i`. -/
theorem outBlock_apply (c : Dev nD) (t : Fin cfg0.N) (u : Fin 1) (i : Fin 512) (cc : Fin 64) :
    (outsAt0 m c t.val t.isLt).1 (ix3 u i cc)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
          (ix3 (⟨t.val / 4, tdiv t⟩ : Fin 8) (⟨512 * (t.val % 4) + i.val, by have := tmod t; have := i.isLt; omega⟩ : Fin 2048) cc) := by
  rw [outBlock_eq]
  refine (KPay.normPay_apply _ _ _ _ u i cc).trans ?_
  unfold kernelOut
  rw [rowOf_apply, rowOf_apply, inv_2047]
  refine congrArg (fun a => layerNorm a w64 wEps _ _ cc) (funext fun c' => ?_)
  rw [KPay.attnPay_apply]
  unfold kAttn
  refine congrArg (· * ((1 / 2047 : ℝ) : EReal)) ?_
  refine congrArg₂ (· - ·) (valueSumsOf_apply m c _ _ 0 c') ?_
  refine Finset.sum_congr rfl fun s _ => ?_
  rw [valuesOf_apply]
  refine congrArg (· * _) ?_
  refine congrArg (fun f => softmax f s) (funext fun s' => ?_)
  unfold kScores dots
  refine congrArg (· * _) ?_
  refine Finset.sum_congr rfl fun c'' _ => ?_
  rw [keysOf_apply, rowOf_apply]
  rfl

end

/-- WHAT POINT `t` WRITES BACK is block `t` of the block's mathematics of the argument arrays. -/
theorem flushed_eq (c : Dev nD) (t : Fin cfg0.N) :
    (dats m 0 c).flushed 10 t = ((cfg0.win 10).blk t).view.read (Elt Ideal)
      (Cert.CrossAttn.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))) := by
  rw [flushed10]
  funext j
  show (outsAt0 m c t.val t.isLt).1 j = Cert.CrossAttn.kernelOut _ _ _ _ _ _ _ _ _ _ (((cfg0.win 10).blk t).view.emb j)
  rw [out_emb t j, eq_ix3 j]
  exact outBlock_apply m c t (j 0) (j 1) (j 2)

/-- An index of the result array is in point `t`'s block iff each coordinate is in the block's range on its axis. -/
theorem mem_blk (t : Fin cfg0.N) (i : S8x2048x64.Idx) :
    i ∈ ((cfg0.win 10).blk t).view.set ↔ ∀ a : Fin 3, win0_10.index t a * S1x512x64.size a ≤ (i a).val
      ∧ (i a).val < win0_10.index t a * S1x512x64.size a + S1x512x64.size a := by
  show i ∈ ((View.whole main_v5).slice (win0_10.rect t)).set ↔ _
  rw [View.set_slice_whole, Rect.mem_set_unit]
  exact Iff.rfl

/-- Every index of the result array lies in the block of the point (batch, row / 512). -/
theorem cover (i : S8x2048x64.Idx) : ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 64 := (i 2).isLt
  have hN : cfg0.N = 32 := N_0
  have hT : 4 * (i 0).val + (i 1).val / 512 < cfg0.N := by omega
  refine ⟨⟨4 * (i 0).val + (i 1).val / 512, hT⟩, flush0_10 _, ?_⟩
  rw [mem_blk]
  obtain ⟨-, -, -, -, -, -, e0, e1, e2⟩ := idx_facts ⟨4 * (i 0).val + (i 1).val / 512, hT⟩
  dsimp only at e0 e1 e2
  intro a
  match a with
  | ⟨0, _⟩ =>
    show win0_10.index _ (0 : Fin 3) * 1 ≤ (i 0).val ∧ (i 0).val < win0_10.index _ (0 : Fin 3) * 1 + 1
    rw [e0]; omega
  | ⟨1, _⟩ =>
    show win0_10.index _ (1 : Fin 3) * 512 ≤ (i 1).val ∧ (i 1).val < win0_10.index _ (1 : Fin 3) * 512 + 512
    rw [e1]; omega
  | ⟨2, _⟩ =>
    show win0_10.index _ (2 : Fin 3) * 64 ≤ (i 2).val ∧ (i 2).val < win0_10.index _ (2 : Fin 3) * 64 + 64
    rw [e2]; omega

/-- So the result array ends holding the block's mathematics of the argument arrays. -/
theorem final (c : Dev nD) : (dats m 0 c).arrAt 10 cfg0.N
    = Cert.CrossAttn.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  (dats m 0 c).arrAt_eq_of_cover 10 _ (fun t _ => flushed_eq m c t) cover

/-- The idealized kernel's run: the result array at the block's mathematics, the arguments unchanged. -/
theorem run : θ_run defs (onTc (τ := τ) (main (F := Ideal))) ⟨m, fun _ => 0, ρ⟩ fun r => ∀ c : Dev nD,
      r.2.mem ((c : Thread nD τ).loc main_v5)
        = Cert.CrossAttn.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.KValue

end
-- ==== Proof.RefOps.lean ====
/-
  The reference program as a straight line of host operations.

  The program's entry function computes the three projections (a matrix product plus a broadcast bias each), the
  scaled scores, the softmax over the key axis, the complement weights divided by 2047, their product with the values,
  and the normalisation of each row over its 64 features. The variance is an outlined function (a mean, the squared
  deviations, their sum divided by 64 minus a degrees-of-freedom word that is 0 here, and a guard that selects NaN when
  that divisor is not positive), and the guard's selection is a second outlined function called from the first. Calling
  an outlined function runs its body on the caller's buffers, so the whole program is ONE list of operations: the
  entry function's own fifty-nine, with the variance's twenty and the selection's three in place of the call, in
  program order. This module lists them, proves that the entry function is the sequence of the list, and proves the
  list's side conditions (every operation touches device buffers only; the signature scopes nothing).
-/
import proofs.«169590_j231928234285_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 82 operations, in order: the entry function's up to the zero degrees-of-freedom word, the variance
    function's body over its call's buffers (its last line, the selection function's three, over that call's), then
    the rest of the entry function's. -/
abbrev ops : List (HloOp τ sig (Elt F)) :=
  [ binary main_arg0 main_arg2 main_v0 ((fun l r => Host.dotGeneral dot_S8x2048x768_S768x64_S8x2048x64_2_0_01_1_n_n none l r) : (⟨S8x2048x768, .f32⟩ : BufTy).Contents (Elt F) → (⟨S768x64, .f32⟩ : BufTy).Contents (Elt F) → (⟨S8x2048x64, .f32⟩ : BufTy).Contents (Elt F)),
    unary main_arg3 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v0 main_v2 main_v3 (addf : (⟨S8x2048x64, .f32⟩ : BufTy).Contents (Elt F) → (⟨S8x2048x64, .f32⟩ : BufTy).Contents (Elt F) → (⟨S8x2048x64, .f32⟩ : BufTy).Contents (Elt F)),
    binary main_arg1 main_arg4 main_v4 ((fun l r => Host.dotGeneral dot_S8x2048x768_S768x64_S8x2048x64_2_0_01_1_n_n none l r) : (⟨S8x2048x768, .f32⟩ : BufTy).Contents (Elt F) → (⟨S768x64, .f32⟩ : BufTy).Contents (Elt F) → (⟨S8x2048x64, .f32⟩ : BufTy).Contents (Elt F)),
    unary main_arg5 main_v5 (broadcastInDim S1x1x64 ![2] bcast_S64_S1x1x64_2 : (⟨S64, .f32⟩ : BufTy).Contents (Elt F) → (⟨S1x1x64, .f32⟩ : BufTy).Contents (Elt F)),
    unary main_v5 main_v6 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v4 main_v6 main_v7 (addf : (⟨S8x2048x64, .f32⟩ : BufTy).Contents (Elt F) → (⟨S8x2048x64, .f32⟩ : BufTy).Contents (Elt F) → (⟨S8x2048x64, .f32⟩ : BufTy).Contents (Elt F)),
    binary main_arg1 main_arg6 main_v8 ((fun l r => Host.dotGeneral dot_S8x2048x768_S768x64_S8x2048x64_2_0_01_1_n_n none l r) : (⟨S8x2048x768, .f32⟩ : BufTy).Contents (Elt F) → (⟨S768x64, .f32⟩ : BufTy).Contents (Elt F) → (⟨S8x2048x64, .f32⟩ : BufTy).Contents (Elt F)),
    unary main_arg7 main_v9 (broadcastInDim S1x1x64 ![2] bcast_S64_S1x1x64_2 : (⟨S64, .f32⟩ : BufTy).Contents (Elt F) → (⟨S1x1x64, .f32⟩ : BufTy).Contents (Elt F)),
    unary main_v9 main_v10 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v8 main_v10 main_v11 (addf : (⟨S8x2048x64, .f32⟩ : BufTy).Contents (Elt F) → (⟨S8x2048x64, .f32⟩ : BufTy).Contents (Elt F) → (⟨S8x2048x64, .f32⟩ : BufTy).Contents (Elt F)),
    binary main_v3 main_v7 main_v12 ((fun l r => Host.dotGeneral dot_S8x2048x64_S8x2048x64_S8x2048x2048_2_2_1_1_0_0 none l r) : (⟨S8x2048x64, .f32⟩ : BufTy).Contents (Elt F) → (⟨S8x2048x64, .f32⟩ : BufTy).Contents (Elt F) → (⟨S8x2048x2048, .f32⟩ : BufTy).Contents (Elt F)),
    nullary main_cst (constant S_ .f32 0x42800000#32),
    unary main_cst main_v13 (Host.sqrt : (⟨S_, .f32⟩ : BufTy).Contents (Elt F) → (⟨S_, .f32⟩ : BufTy).Contents (Elt F)),
    unary main_v13 main_v14 (broadcastInDim S8x2048x2048 ![] bcast_S_S8x2048x2048 : (⟨S_, .f32⟩ : BufTy).Contents (Elt F) → (⟨S8x2048x2048, .f32⟩ : BufTy).Contents (Elt F)),
    binary main_v12 main_v14 main_v15 (Host.divf : (⟨S8x2048x2048, .f32⟩ : BufTy).Contents (Elt F) → (⟨S8x2048x2048, .f32⟩ : BufTy).Contents (Elt F) → (⟨S8x2048x2048, .f32⟩ : BufTy).Contents (Elt F)),
    nullary main_cst_0 (constant S_ .f32 0xFF800000#32),
    binary main_v15 main_cst_0 main_v16 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_1 (constant S_ .f32 0xFF800000#32),
    unary main_cst_1 main_v17 (broadcastInDim S8x2048 ![] bcast_S_S8x2048 : (⟨S_, .f32⟩ : BufTy).Contents (Elt F) → (⟨S8x2048, .f32⟩ : BufTy).Contents (Elt F)),
    binary main_v17 main_v16 main_v18 (maximumf : (⟨S8x2048, .f32⟩ : BufTy).Contents (Elt F) → (⟨S8x2048, .f32⟩ : BufTy).Contents (Elt F) → (⟨S8x2048, .f32⟩ : BufTy).Contents (Elt F)),
    unary main_v18 main_v19 (broadcastInDim S8x2048x1 ![0, 1] bcast_S8x2048_S8x2048x1_0_1 : (⟨S8x2048, .f32⟩ : BufTy).Contents (Elt F) → (⟨S8x2048x1, .f32⟩ : BufTy).Contents (Elt F)),
    unary main_v19 main_v20 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v15 main_v20 main_v21 (subf : (⟨S8x2048x2048, .f32⟩ : BufTy).Contents (Elt F) → (⟨S8x2048x2048, .f32⟩ : BufTy).Contents (Elt F) → (⟨S8x2048x2048, .f32⟩ : BufTy).Contents (Elt F)),
    unary main_v21 main_v22 (Host.exp : (⟨S8x2048x2048, .f32⟩ : BufTy).Contents (Elt F) → (⟨S8x2048x2048, .f32⟩ : BufTy).Contents (Elt F)),
    nullary main_cst_2 (constant S_ .f32 0x00000000#32),
    binary main_v22 main_cst_2 main_v23 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v23 main_v24 (broadcastInDim S8x2048x1 ![0, 1] bcast_S8x2048_S8x2048x1_0_1 : (⟨S8x2048, .f32⟩ : BufTy).Contents (Elt F) → (⟨S8x2048x1, .f32⟩ : BufTy).Contents (Elt F)),
    unary main_v24 main_v25 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v22 main_v25 main_v26 (Host.divf : (⟨S8x2048x2048, .f32⟩ : BufTy).Contents (Elt F) → (⟨S8x2048x2048, .f32⟩ : BufTy).Contents (Elt F) → (⟨S8x2048x2048, .f32⟩ : BufTy).Contents (Elt F)),
    nullary main_cst_3 (constant S_ .f32 0x3F800000#32),
    unary main_cst_3 main_v27 (broadcastInDim S8x2048x2048 ![] bcast_S_S8x2048x2048 : (⟨S_, .f32⟩ : BufTy).Contents (Elt F) → (⟨S8x2048x2048, .f32⟩ : BufTy).Contents (Elt F)),
    binary main_v27 main_v26 main_v28 (subf : (⟨S8x2048x2048, .f32⟩ : BufTy).Contents (Elt F) → (⟨S8x2048x2048, .f32⟩ : BufTy).Contents (Elt F) → (⟨S8x2048x2048, .f32⟩ : BufTy).Contents (Elt F)),
    nullary main_cst_4 (constant S_ .f32 0x44FFE000#32),
    unary main_cst_4 main_v29 (broadcastInDim S8x2048x2048 ![] bcast_S_S8x2048x2048 : (⟨S_, .f32⟩ : BufTy).Contents (Elt F) → (⟨S8x2048x2048, .f32⟩ : BufTy).Contents (Elt F)),
    binary main_v28 main_v29 main_v30 (Host.divf : (⟨S8x2048x2048, .f32⟩ : BufTy).Contents (Elt F) → (⟨S8x2048x2048, .f32⟩ : BufTy).Contents (Elt F) → (⟨S8x2048x2048, .f32⟩ : BufTy).Contents (Elt F)),
    binary main_v30 main_v11 main_v31 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    nullary main_cst_5 (constant S_ .f32 0x00000000#32),
    binary main_v31 main_cst_5 main_v32 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v32 main_v33 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_6 (constant S_ .f32 0x42800000#32),
    unary main_cst_6 main_v34 (broadcastInDim S8x2048x1 ![] bcast_S_S8x2048x1 : (⟨S_, .f32⟩ : BufTy).Contents (Elt F) → (⟨S8x2048x1, .f32⟩ : BufTy).Contents (Elt F)),
    binary main_v33 main_v34 main_v35 (Host.divf : (⟨S8x2048x1, .f32⟩ : BufTy).Contents (Elt F) → (⟨S8x2048x1, .f32⟩ : BufTy).Contents (Elt F) → (⟨S8x2048x1, .f32⟩ : BufTy).Contents (Elt F)),
    nullary main_c (constantI S_ 32 0#32),
    TRef.nullary main_call0.cst (constant S_ .f32 0x00000000#32),
    TRef.binary (.of main_v31 : TRef sig ⟨S8x2048x64, .f32⟩) main_call0.cst main_call0.v0 (fun x v => Host.reduceAdd x v reducesTo_S8x2048x64_S8x2048_d2 h_S_),
    TRef.unary main_call0.v0 main_call0.v1 (broadcastInDim S8x2048x1 ![0, 1] bcast_S8x2048_S8x2048x1_0_1),
    TRef.nullary main_call0.cst_0 (constant S_ .f32 0x42800000#32),
    TRef.unary main_call0.cst_0 main_call0.v2 (broadcastInDim S8x2048x1 ![] bcast_S_S8x2048x1),
    TRef.binary main_call0.v1 main_call0.v2 main_call0.v3 Host.divf,
    TRef.unary main_call0.v3 main_call0.v4 (broadcastInDim S8x2048x64 ![0, 1, 2] bcast_S8x2048x1_S8x2048x64_0_1_2),
    TRef.binary (.of main_v31 : TRef sig ⟨S8x2048x64, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x42800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x2048x64_S8x2048_d2 h_S_),
    TRef.unary main_call0.v9 main_call0.v10 (broadcastInDim S8x2048x1 ![0, 1] bcast_S8x2048_S8x2048x1_0_1),
    TRef.unary main_call0.v8 main_call0.v11 (broadcastInDim S8x2048x1 ![] bcast_S_S8x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x2048x1 ![] bcast_S_S8x2048x1),
    TRef.ternary main_call0.v13 main_call0.v12 main_call0.call0.v1 main_call0.call0.v2 (fun p a b => select (broadcastInDim S8x2048x1 ![] bcast_S_S8x2048x1 p) a b),
    unary main_v35 main_v37 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v31 main_v37 main_v38 (subf : (⟨S8x2048x64, .f32⟩ : BufTy).Contents (Elt F) → (⟨S8x2048x64, .f32⟩ : BufTy).Contents (Elt F) → (⟨S8x2048x64, .f32⟩ : BufTy).Contents (Elt F)),
    nullary main_cst_7 (constant S_ .f32 0x3727C5AC#32),
    unary main_cst_7 main_v39 (broadcastInDim S8x2048x1 ![] bcast_S_S8x2048x1 : (⟨S_, .f32⟩ : BufTy).Contents (Elt F) → (⟨S8x2048x1, .f32⟩ : BufTy).Contents (Elt F)),
    binary main_v36 main_v39 main_v40 (addf : (⟨S8x2048x1, .f32⟩ : BufTy).Contents (Elt F) → (⟨S8x2048x1, .f32⟩ : BufTy).Contents (Elt F) → (⟨S8x2048x1, .f32⟩ : BufTy).Contents (Elt F)),
    unary main_v40 main_v41 (Host.rsqrt : (⟨S8x2048x1, .f32⟩ : BufTy).Contents (Elt F) → (⟨S8x2048x1, .f32⟩ : BufTy).Contents (Elt F)),
    unary main_v41 main_v42 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v38 main_v42 main_v43 (mulf : (⟨S8x2048x64, .f32⟩ : BufTy).Contents (Elt F) → (⟨S8x2048x64, .f32⟩ : BufTy).Contents (Elt F) → (⟨S8x2048x64, .f32⟩ : BufTy).Contents (Elt F)),
    unary main_arg8 main_v44 (broadcastInDim S1x1x64 ![2] bcast_S64_S1x1x64_2 : (⟨S64, .f32⟩ : BufTy).Contents (Elt F) → (⟨S1x1x64, .f32⟩ : BufTy).Contents (Elt F)),
    unary main_v44 main_v45 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v43 main_v45 main_v46 (mulf : (⟨S8x2048x64, .f32⟩ : BufTy).Contents (Elt F) → (⟨S8x2048x64, .f32⟩ : BufTy).Contents (Elt F) → (⟨S8x2048x64, .f32⟩ : BufTy).Contents (Elt F)),
    unary main_arg9 main_v47 (broadcastInDim S1x1x64 ![2] bcast_S64_S1x1x64_2 : (⟨S64, .f32⟩ : BufTy).Contents (Elt F) → (⟨S1x1x64, .f32⟩ : BufTy).Contents (Elt F)),
    unary main_v47 main_v48 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v46 main_v48 main_v49 (addf : (⟨S8x2048x64, .f32⟩ : BufTy).Contents (Elt F) → (⟨S8x2048x64, .f32⟩ : BufTy).Contents (Elt F) → (⟨S8x2048x64, .f32⟩ : BufTy).Contents (Elt F)) ]

-- both sides are chains of eighty-two steps compared step by step
set_option maxRecDepth 8192 in
set_option maxHeartbeats 4000000 in
/-- The entry function is that straight line: sequencing is grafting at the leaves, which computes, so the two
    windows, the variance function's body at its call and the selection function's body at its call unfold to the
    one chain of steps that the sequence of the list is. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line reads and writes TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., nullary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

end Cert.ReferenceIdeal.RefRun

end
-- ==== Proof.RefStages.lean ====
/-
  The reference program's values, as named functions at the ideal instance.

  Every definition below is one printed operation (or two or three consecutive ones) of the reference's
  @main, of the outlined @_var it calls, and of the @_where that one calls, applied to the earlier values.
  The names follow the program's: `v15` is %15, `var_v12` is @_var's %12, and so on. The stages are functions
  of the values they read, and `refTerm` composes them over the ten argument arrays.
-/
import proofs.«169590_j231928234285_2_alg».proof.ReferenceIdeal
import Idealize.ShloMosaic.PureOps.Ideal

noncomputable section

namespace Cert.ReferenceIdeal.RefStages

open Cert.ReferenceIdeal Idealize.ShloMosaic
open Cert.ReferenceIdeal.Facts₀ Cert.ReferenceIdeal.Facts

variable [Cert.ReferenceIdeal.Facts]

/-- The arrays' types at the ideal instance (each is the contents type of a buffer of that shape, by computation). -/
abbrev TAct := FVec Ideal S8x2048x768 .f32
abbrev TWgt := FVec Ideal S768x64 .f32
abbrev TVec := FVec Ideal S64 .f32
abbrev TOut := FVec Ideal S8x2048x64 .f32
abbrev TSc := FVec Ideal S8x2048x2048 .f32
abbrev TRow := FVec Ideal S8x2048 .f32
abbrev TCol := FVec Ideal S8x2048x1 .f32
abbrev TS := FVec Ideal S_ .f32
abbrev TI32 := IVec S_ 32
abbrev TI1 := IVec S_ 1

/-- %0 … %3 (and %4 … %7, %8 … %11): a token array times a weight matrix, plus the bias broadcast along the
    batch and token axes. -/
def proj (x : TAct) (w : TWgt) (bias : TVec) : TOut :=
  addf (Host.dotGeneral (F := Ideal) dot_S8x2048x768_S768x64_S8x2048x64_2_0_01_1_n_n none x w)
    (broadcastInDim S8x2048x64 ![0, 1, 2] bcast_S1x1x64_S8x2048x64_0_1_2 (broadcastInDim S1x1x64 ![2] bcast_S64_S1x1x64_2 bias))

/-- %12: per batch, the query rows times the key rows over the 64 features. -/
def v12 (q k : TOut) : TSc :=
  Host.dotGeneral (F := Ideal) dot_S8x2048x64_S8x2048x64_S8x2048x2048_2_2_1_1_0_0 none q k

/-- %cst, %13, %14, %15: the scores divided by the square root of the word 64. -/
def v15 (s : TSc) : TSc :=
  Host.divf (F := Ideal) s
    (broadcastInDim S8x2048x2048 ![] bcast_S_S8x2048x2048 (Host.sqrt (F := Ideal) (constant (F := Ideal) S_ .f32 0x42800000#32)))

/-- %cst_0, %16: the maximum of each row of scores, folded from the word for minus infinity. -/
def v16 (s : TSc) : TRow :=
  Host.reduce FloatOps.maximumf s (constant (F := Ideal) S_ .f32 0xFF800000#32) reducesTo_S8x2048x2048_S8x2048_d2 h_S_

/-- %cst_1, %17, %18: the maximum of that and the word for minus infinity. -/
def v18 (m : TRow) : TRow :=
  maximumf (broadcastInDim S8x2048 ![] bcast_S_S8x2048 (constant (F := Ideal) S_ .f32 0xFF800000#32)) m

/-- %19, %20, %21, %22: the exponential of each score less its row's maximum. -/
def v22 (s : TSc) (m : TRow) : TSc :=
  Host.exp (F := Ideal) (subf s
    (broadcastInDim S8x2048x2048 ![0, 1, 2] bcast_S8x2048x1_S8x2048x2048_0_1_2 (broadcastInDim S8x2048x1 ![0, 1] bcast_S8x2048_S8x2048x1_0_1 m)))

/-- %cst_2, %23: the sum of each row of exponentials. -/
def v23 (e : TSc) : TRow :=
  Host.reduceAdd (F := Ideal) e (constant (F := Ideal) S_ .f32 0x00000000#32) reducesTo_S8x2048x2048_S8x2048_d2 h_S_

/-- %24, %25, %26: each exponential divided by its row's sum. -/
def v26 (e : TSc) (l : TRow) : TSc :=
  Host.divf (F := Ideal) e
    (broadcastInDim S8x2048x2048 ![0, 1, 2] bcast_S8x2048x1_S8x2048x2048_0_1_2 (broadcastInDim S8x2048x1 ![0, 1] bcast_S8x2048_S8x2048x1_0_1 l))

/-- %cst_3, %27, %28: the word 1.0 less each weight. -/
def v28 (w : TSc) : TSc :=
  subf (broadcastInDim S8x2048x2048 ![] bcast_S_S8x2048x2048 (constant (F := Ideal) S_ .f32 0x3F800000#32)) w

/-- %cst_4, %29, %30: that divided by the word 2047.0. -/
def v30 (w : TSc) : TSc :=
  Host.divf (F := Ideal) w (broadcastInDim S8x2048x2048 ![] bcast_S_S8x2048x2048 (constant (F := Ideal) S_ .f32 0x44FFE000#32))

/-- %31: per batch, the reversed weights times the value rows. -/
def v31 (w : TSc) (v : TOut) : TOut :=
  Host.dotGeneral (F := Ideal) dot_S8x2048x2048_S8x2048x64_S8x2048x64_2_1_1_2_0_0 none w v

/-- %cst_5, %32, %33: the sum of each row's 64 features, as a column. -/
def v33 (x : TOut) : TCol :=
  broadcastInDim S8x2048x1 ![0, 1] bcast_S8x2048_S8x2048x1_0_1
    (Host.reduceAdd (F := Ideal) x (constant (F := Ideal) S_ .f32 0x00000000#32) reducesTo_S8x2048x64_S8x2048_d2 h_S_)

/-- %cst_6, %34, %35: the mean of each row. -/
def v35 (s : TCol) : TCol :=
  Host.divf (F := Ideal) s (broadcastInDim S8x2048x1 ![] bcast_S_S8x2048x1 (constant (F := Ideal) S_ .f32 0x42800000#32))

/-! ### The outlined variance, @_var of (%31, %c) -/

/-- %c: the integer 0. -/
def c0 : TI32 := constantI S_ 32 0#32

/-- @_var's %cst, %0, %1: the sum of each row's 64 features, as a column. -/
def var_v1 (x : TOut) : TCol :=
  broadcastInDim S8x2048x1 ![0, 1] bcast_S8x2048_S8x2048x1_0_1
    (Host.reduceAdd (F := Ideal) x (constant (F := Ideal) S_ .f32 0x00000000#32) reducesTo_S8x2048x64_S8x2048_d2 h_S_)

/-- @_var's %cst_0, %2, %3: the mean of each row. -/
def var_v3 (s : TCol) : TCol :=
  Host.divf (F := Ideal) s (broadcastInDim S8x2048x1 ![] bcast_S_S8x2048x1 (constant (F := Ideal) S_ .f32 0x42800000#32))

/-- @_var's %4, %5: each entry less its row's mean. -/
def var_v5 (x : TOut) (mu : TCol) : TOut :=
  subf x (broadcastInDim S8x2048x64 ![0, 1, 2] bcast_S8x2048x1_S8x2048x64_0_1_2 mu)

/-- @_var's %6: the square of that. -/
def var_v6 (d : TOut) : TOut := mulf d d

/-- @_var's %7, %cst_1, %8: the word 64 less the integer argument as a float. -/
def var_v8 (c : TI32) : TS :=
  subf (constant (F := Ideal) S_ .f32 0x42800000#32) (sitofp (F := Ideal) .f32 c)

/-- @_var's %cst_2, %9, %10: the sum of each row's squares, as a column. -/
def var_v10 (d2 : TOut) : TCol :=
  broadcastInDim S8x2048x1 ![0, 1] bcast_S8x2048_S8x2048x1_0_1
    (Host.reduceAdd (F := Ideal) d2 (constant (F := Ideal) S_ .f32 0x00000000#32) reducesTo_S8x2048x64_S8x2048_d2 h_S_)

/-- @_var's %11, %12: that divided by the count. -/
def var_v12 (s : TCol) (n : TS) : TCol :=
  Host.divf (F := Ideal) s (broadcastInDim S8x2048x1 ![] bcast_S_S8x2048x1 n)

/-- @_var's %cst_3, %13: is the count positive? -/
def var_v13 (n : TS) : TI1 :=
  cmpf (F := Ideal) .ogt n (constant (F := Ideal) S_ .f32 0x00000000#32)

/-- @_var's %cst_4 and @_where's %0, %1, %2 (= %36): the quotient where the count is positive, the word
    0x7FC00000 elsewhere. -/
def v36 (p : TI1) (a : TCol) : TCol :=
  select (broadcastInDim S8x2048x1 ![] bcast_S_S8x2048x1 p) a
    (broadcastInDim S8x2048x1 ![] bcast_S_S8x2048x1 (id (constant (F := Ideal) S_ .f32 0x7FC00000#32)))

/-- %36 of a row array `x`: the stages of @_var in order. -/
def var (x : TOut) : TCol :=
  v36 (var_v13 (var_v8 c0)) (var_v12 (var_v10 (var_v6 (var_v5 x (var_v3 (var_v1 x))))) (var_v8 c0))

/-! ### The normalisation -/

/-- %37, %38: each entry less its row's mean. -/
def v38 (x : TOut) (mu : TCol) : TOut :=
  subf x (broadcastInDim S8x2048x64 ![0, 1, 2] bcast_S8x2048x1_S8x2048x64_0_1_2 mu)

/-- %cst_7, %39, %40, %41: the reciprocal square root of the variance plus the epsilon word. -/
def v41 (va : TCol) : TCol :=
  Host.rsqrt (F := Ideal) (addf va (broadcastInDim S8x2048x1 ![] bcast_S_S8x2048x1 (constant (F := Ideal) S_ .f32 0x3727C5AC#32)))

/-- %42, %43: the centred entry times that. -/
def v43 (d : TOut) (r : TCol) : TOut :=
  mulf d (broadcastInDim S8x2048x64 ![0, 1, 2] bcast_S8x2048x1_S8x2048x64_0_1_2 r)

/-- %44, %45, %46: times gamma along the feature axis. -/
def v46 (y : TOut) (g : TVec) : TOut :=
  mulf y (broadcastInDim S8x2048x64 ![0, 1, 2] bcast_S1x1x64_S8x2048x64_0_1_2 (broadcastInDim S1x1x64 ![2] bcast_S64_S1x1x64_2 g))

/-- %47, %48, %49: plus beta along the feature axis. -/
def v49 (y : TOut) (be : TVec) : TOut :=
  addf y (broadcastInDim S8x2048x64 ![0, 1, 2] bcast_S1x1x64_S8x2048x64_0_1_2 (broadcastInDim S1x1x64 ![2] bcast_S64_S1x1x64_2 be))

/-! ### The composition -/

/-- %15 of the arguments. -/
def scores (a0 a1 : TAct) (a2 : TWgt) (a3 : TVec) (a4 : TWgt) (a5 : TVec) : TSc :=
  v15 (v12 (proj a0 a2 a3) (proj a1 a4 a5))

/-- %22 of the scores. -/
def expo (s : TSc) : TSc := v22 s (v18 (v16 s))

/-- %30 of the scores: the reversed, rescaled softmax weights. -/
def weights (s : TSc) : TSc := v30 (v28 (v26 (expo s) (v23 (expo s))))

/-- %31 of the arguments. -/
def attn (a0 a1 : TAct) (a2 : TWgt) (a3 : TVec) (a4 : TWgt) (a5 : TVec) (a6 : TWgt) (a7 : TVec) : TOut :=
  v31 (weights (scores a0 a1 a2 a3 a4 a5)) (proj a1 a6 a7)

/-- %49 of %31 and the two feature vectors. -/
def norm (x : TOut) (g be : TVec) : TOut :=
  v49 (v46 (v43 (v38 x (v35 (v33 x))) (v41 (var x))) g) be

/-- %49 of the ten arguments. -/
def refTerm (a0 a1 : TAct) (a2 : TWgt) (a3 : TVec) (a4 : TWgt) (a5 : TVec) (a6 : TWgt) (a7 a8 a9 : TVec) : TOut :=
  norm (attn a0 a1 a2 a3 a4 a5 a6 a7) a8 a9

end Cert.ReferenceIdeal.RefStages

end
-- ==== Proof.RefRun.lean ====
/-
  The reference program's run, read back.

  The entry function is a straight line of host operations (module RefOps), so every weakly fair execution of it on
  the TensorCores terminates with each buffer at the fold of the operations' results over the launch contents. At the
  result buffer that fold is the composition of the program's stages over the ten argument arrays (module RefStages),
  one operation after the other; at an argument buffer it is the launch contents, since no operation writes an
  argument.
-/
import proofs.«169590_j231928234285_2_alg».proof.Proof.RefOps
import proofs.«169590_j231928234285_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
/-- The fold of the line at the result buffer is the composition of the stages over the arguments' contents. -/
theorem out_eq (V : Valuation τ sig (Elt Ideal)) :
    after (ops (F := Ideal)) V (Proc.devRef .tc main_v49)
      = RefStages.refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  after_results_simp
  rfl

/-! No operation of the line writes an argument buffer: the fold there is the launch contents. -/

variable {F : FTy → Type} [FloatOps F]

theorem arg0_eq (V : Valuation τ sig (Elt F)) :
    after (ops (F := F)) V (Proc.devRef .tc main_arg0) = V (Proc.devRef .tc main_arg0) := by after_results_simp
theorem arg1_eq (V : Valuation τ sig (Elt F)) :
    after (ops (F := F)) V (Proc.devRef .tc main_arg1) = V (Proc.devRef .tc main_arg1) := by after_results_simp
theorem arg2_eq (V : Valuation τ sig (Elt F)) :
    after (ops (F := F)) V (Proc.devRef .tc main_arg2) = V (Proc.devRef .tc main_arg2) := by after_results_simp
theorem arg3_eq (V : Valuation τ sig (Elt F)) :
    after (ops (F := F)) V (Proc.devRef .tc main_arg3) = V (Proc.devRef .tc main_arg3) := by after_results_simp
theorem arg4_eq (V : Valuation τ sig (Elt F)) :
    after (ops (F := F)) V (Proc.devRef .tc main_arg4) = V (Proc.devRef .tc main_arg4) := by after_results_simp
theorem arg5_eq (V : Valuation τ sig (Elt F)) :
    after (ops (F := F)) V (Proc.devRef .tc main_arg5) = V (Proc.devRef .tc main_arg5) := by after_results_simp
theorem arg6_eq (V : Valuation τ sig (Elt F)) :
    after (ops (F := F)) V (Proc.devRef .tc main_arg6) = V (Proc.devRef .tc main_arg6) := by after_results_simp
theorem arg7_eq (V : Valuation τ sig (Elt F)) :
    after (ops (F := F)) V (Proc.devRef .tc main_arg7) = V (Proc.devRef .tc main_arg7) := by after_results_simp
theorem arg8_eq (V : Valuation τ sig (Elt F)) :
    after (ops (F := F)) V (Proc.devRef .tc main_arg8) = V (Proc.devRef .tc main_arg8) := by after_results_simp
theorem arg9_eq (V : Valuation τ sig (Elt F)) :
    after (ops (F := F)) V (Proc.devRef .tc main_arg9) = V (Proc.devRef .tc main_arg9) := by after_results_simp

/-- On every device, from any memory with zero counters: every weakly fair execution of the entry function terminates
    with the result buffer at the composition of the stages over the arguments' launch contents, and the ten argument
    buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
        = RefStages.refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v49).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefLayout.lean ====
/-
  Broadcasts and one-axis reductions of the block's arrays, read at an entry.

  A row array [8, 2048] turned into a column [8, 2048, 1], a column repeated along a last axis of 2048 or of 64
  entries, a feature vector [64] repeated over the batch and token axes; and the sum and the maximum of a rank-3
  array over its last axis at row (b, i), as the sum and the fold of max over that row's entries.
-/
import Idealize.ShloMosaic.PureOps.Ideal.Laws
import Idealize.ShloMosaic.Lib.ValueIdx
import Idealize.ShloMosaic.Lib.IdealHost
import Idealize.ShloMosaic.Lib.Pipeline.Value

open scoped BigOperators

namespace Cert.ReferenceIdeal.RefLayout

open Idealize.ShloMosaic Idealize.ShloMosaic.ValueIdx

variable {α : Type}

/-- A row array `[m, n]` as a column `[m, n, 1]`: entry `(b, i, u)` is the row array's `(b, i)`. -/
theorem bcast_row_col_apply {m n : ℕ} (h : (⟨2, ![m, n]⟩ : Shape).BroadcastsInDim ⟨3, ![m, n, 1]⟩ ![0, 1])
    (x : (⟨2, ![m, n]⟩ : Shape).Idx → α) (b : Fin m) (i : Fin n) (u : Fin 1) :
    broadcastInDim ⟨3, ![m, n, 1]⟩ ![0, 1] h x (ix3 b i u) = x (ix2 b i) := by
  refine broadcastInDim_apply _ h x (ix3 b i u) (ix2 b i) fun a => ?_
  match a with
  | ⟨0, _⟩ =>
    show b.val = if m = 1 then 0 else b.val
    split
    · have := b.isLt; omega
    · rfl
  | ⟨1, _⟩ =>
    show i.val = if n = 1 then 0 else i.val
    split
    · have := i.isLt; omega
    · rfl

/-- A column `[m, n, 1]` repeated along a last axis of `k` entries: entry `(b, i, c)` is the column's `(b, i, 0)`. -/
theorem bcast_col_apply {m n k : ℕ} (h : (⟨3, ![m, n, 1]⟩ : Shape).BroadcastsInDim ⟨3, ![m, n, k]⟩ ![0, 1, 2])
    (x : (⟨3, ![m, n, 1]⟩ : Shape).Idx → α) (b : Fin m) (i : Fin n) (c : Fin k) :
    broadcastInDim ⟨3, ![m, n, k]⟩ ![0, 1, 2] h x (ix3 b i c) = x (ix3 b i (0 : Fin 1)) := by
  refine broadcastInDim_apply _ h x (ix3 b i c) (ix3 b i (0 : Fin 1)) fun a => ?_
  match a with
  | ⟨0, _⟩ =>
    show b.val = if m = 1 then 0 else b.val
    split
    · have := b.isLt; omega
    · rfl
  | ⟨1, _⟩ =>
    show i.val = if n = 1 then 0 else i.val
    split
    · have := i.isLt; omega
    · rfl
  | ⟨2, _⟩ => rfl

/-- A vector `[k]` as `[1, 1, k]`, repeated over the two leading axes: entry `(b, i, c)` is the vector's `c`. -/
theorem bcast_vec_apply {m n k : ℕ} (h1 : (⟨1, ![k]⟩ : Shape).BroadcastsInDim ⟨3, ![1, 1, k]⟩ ![2])
    (h2 : (⟨3, ![1, 1, k]⟩ : Shape).BroadcastsInDim ⟨3, ![m, n, k]⟩ ![0, 1, 2])
    (x : (⟨1, ![k]⟩ : Shape).Idx → α) (b : Fin m) (i : Fin n) (c : Fin k) :
    broadcastInDim ⟨3, ![m, n, k]⟩ ![0, 1, 2] h2 (broadcastInDim ⟨3, ![1, 1, k]⟩ ![2] h1 x) (ix3 b i c) = x (ix1 c) := by
  refine (broadcastInDim_apply _ h2 _ (ix3 b i c) (ix3 (0 : Fin 1) (0 : Fin 1) c) fun a => ?_).trans ?_
  · match a with
    | ⟨0, _⟩ => rfl
    | ⟨1, _⟩ => rfl
    | ⟨2, _⟩ =>
      show c.val = if k = 1 then 0 else c.val
      split
      · have := c.isLt; omega
      · rfl
  · refine broadcastInDim_apply _ h1 x _ (ix1 c) fun a => ?_
    match a with
    | ⟨0, _⟩ =>
      show c.val = if k = 1 then 0 else c.val
      split
      · have := c.isLt; omega
      · rfl

/-- Inserting coordinate `k` on the last axis over the row index `(b, i)` gives the index `(b, i, k)`. -/
theorem reduces_last_lift {m n l : ℕ} (h : (⟨3, ![m, n, l]⟩ : Shape).Reduces [2] ⟨2, ![m, n]⟩) (b : Fin m) (i : Fin n) (k : Fin l) :
    h.lift (ix2 b i) k = ix3 b i k := by
  funext ax; apply Fin.ext
  show h.liftVal (ix2 b i) k.val ax = (ix3 b i k ax).val
  unfold Shape.Reduces.liftVal
  match ax with
  | ⟨0, _⟩ => rfl
  | ⟨1, _⟩ => rfl
  | ⟨2, _⟩ => rfl

/-- The host's sum of a rank-3 array over its last axis from a scalar initial array, at row `(b, i)`: the initial
    value plus the sum of that row's entries. -/
theorem hostReduceAdd_last_apply {m n l : ℕ} {φ : FTy} (x : FVec Ideal ⟨3, ![m, n, l]⟩ φ) (init : (⟨0, ![]⟩ : Shape).Idx → Ideal φ)
    (h' : (⟨3, ![m, n, l]⟩ : Shape).ReducesTo [2] ⟨2, ![m, n]⟩) (h : (⟨3, ![m, n, l]⟩ : Shape).Reduces [2] ⟨2, ![m, n]⟩)
    (hu : 0 < (⟨0, ![]⟩ : Shape).numel) (b : Fin m) (i : Fin n) :
    Host.reduceAdd (F := Ideal) x init h' hu (ix2 b i) = init (Shape.Idx.first hu) + ∑ k : Fin l, x (ix3 b i k) := by
  refine (hostReduceAdd_apply x init h' hu (ix2 b i)).trans ?_
  refine (Ideal.hostReduceAdd_single h' h x _ (ix2 b i)).trans ?_
  exact congrArg (init (Shape.Idx.first hu) + ·) (Finset.sum_congr rfl fun k _ => congrArg x (reduces_last_lift h b i k))

/-- The host's reduction of a rank-3 array over its last axis by a commutative associative operation, at row
    `(b, i)`: the fold from the initial value over that row's entries. -/
theorem hostReduce_last_apply {m n l : ℕ} (f : α → α → α) [Std.Commutative f] [Std.Associative f]
    (x : (⟨3, ![m, n, l]⟩ : Shape).Idx → α) (init : (⟨0, ![]⟩ : Shape).Idx → α)
    (h' : (⟨3, ![m, n, l]⟩ : Shape).ReducesTo [2] ⟨2, ![m, n]⟩) (h : (⟨3, ![m, n, l]⟩ : Shape).Reduces [2] ⟨2, ![m, n]⟩)
    (hu : 0 < (⟨0, ![]⟩ : Shape).numel) (b : Fin m) (i : Fin n) :
    Host.reduce f x init h' hu (ix2 b i) = (Finset.univ : Finset (Fin l)).fold f (init (Shape.Idx.first hu)) (fun k => x (ix3 b i k)) := by
  refine (Host.reduce_eq_fold_single f x init h' h hu (ix2 b i)).trans ?_
  exact congrArg (fun g => (Finset.univ : Finset (Fin l)).fold f (init (Shape.Idx.first hu)) g)
    (funext fun k => congrArg x (reduces_last_lift h b i k))

end Cert.ReferenceIdeal.RefLayout
-- ==== Proof.RefDots.lean ====
/-
  Two of the block's matrix products, read at an entry.

  A stack of [m, k] token rows times one [k, n] weight matrix; and, per member of a stack, an [m, k] matrix times the
  transpose of an [n, k] matrix (rows by rows). At the exact extended reals each entry is the sum over the contracted
  coordinate of the products of the two operands' entries. (The third product, per member an [m, k] matrix times a
  [k, n] matrix, is the library's `StackMember.dotGeneral_stack_apply`.)
-/
import Idealize.ShloMosaic.PureOps.Ideal.Laws
import Idealize.ShloMosaic.Lib.ValueIdx
import Idealize.ShloMosaic.Lib.StackMember

open scoped BigOperators

noncomputable section

namespace Cert.ReferenceIdeal.RefLayout

open Idealize.ShloMosaic Idealize.ShloMosaic.ValueIdx

/-- `[G, m, k]` by `[k, n]`, contracting the last axis of the first with the first of the second: entry `(g, a, b)`
    is `∑ c, A (g, a, c) * B (c, b)`. -/
theorem dotGeneral_rows_weight_apply {G m k n : ℕ} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- Per member `g`, `[m, k]` by `[n, k]`, both contracting their last axis: entry `(g, a, b)` is
    `∑ c, A (g, a, c) * B (g, b, c)`. -/
theorem dotGeneral_stack_rows_rows_apply {G m k n : ℕ} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.ReferenceIdeal.RefLayout

end
-- ==== Proof.RefValueProj.lean ====
/-
  The reference's three matrix products at an entry: the projections %3, %7, %11, the scores' dot products %12,
  and the weighted combination %31 of the value rows.
-/
import proofs.«169590_j231928234285_2_alg».proof.Proof.RefStages
import proofs.«169590_j231928234285_2_alg».proof.Proof.RefLayout
import proofs.«169590_j231928234285_2_alg».proof.Proof.RefDots
import proofs.«169590_j231928234285_2_alg».proof.Proof.Spec
import Idealize.ShloMosaic.Lib.StackMember

open scoped BigOperators

noncomputable section

namespace Cert.ReferenceIdeal.RefStages

open Cert.ReferenceIdeal Idealize.ShloMosaic Idealize.ShloMosaic.ValueIdx
open Cert.ReferenceIdeal.Facts₀ Cert.ReferenceIdeal.Facts Cert.ReferenceIdeal.RefLayout

variable [Cert.ReferenceIdeal.Facts]

/-- A projection at `(b, s, c)`: the token row times the weight column, plus the bias at `c`. -/
theorem proj_apply (x : TAct) (w : TWgt) (bias : TVec) (b : Fin 8) (s : Fin 2048) (c : Fin 64) :
    proj x w bias (ix3 b s c) = Cert.CrossAttn.proj x w bias b s c := by
  unfold proj Cert.CrossAttn.proj
  refine (addf_apply _ _ _).trans ?_
  refine congrArg₂ (· + ·) ?_ ?_
  · exact dotGeneral_rows_weight_apply dot_S8x2048x768_S768x64_S8x2048x64_2_0_01_1_n_n_wf none x w b s c
  · exact bcast_vec_apply bcast_S64_S1x1x64_2 bcast_S1x1x64_S8x2048x64_0_1_2 bias b s c

/-- %12 at `(b, i, s)`: the dot product over the 64 features of query row `i` and key row `s` of batch `b`. -/
theorem v12_apply (q k : TOut) (b : Fin 8) (i s : Fin 2048) :
    v12 q k (ix3 b i s) = ∑ c : Fin 64, q (ix3 b i c) * k (ix3 b s c) := by
  unfold v12
  exact dotGeneral_stack_rows_rows_apply dot_S8x2048x64_S8x2048x64_S8x2048x2048_2_2_1_1_0_0_wf none q k b i s

/-- %31 at `(b, i, c)`: the value rows of batch `b` combined with row `i` of the weights. -/
theorem v31_apply (w : TSc) (v : TOut) (b : Fin 8) (i : Fin 2048) (c : Fin 64) :
    v31 w v (ix3 b i c) = ∑ s : Fin 2048, w (ix3 b i s) * v (ix3 b s c) := by
  unfold v31
  exact StackMember.dotGeneral_stack_apply dot_S8x2048x2048_S8x2048x64_S8x2048x64_2_1_1_2_0_0_wf none w v b i c

end Cert.ReferenceIdeal.RefStages

end
-- ==== Proof.RefWords.lean ====
/-
  Two facts about the float words of the reference: the word 0xFF800000 denotes minus infinity, and the word 64.0
  less the integer 0 is a number above zero, so the comparison "greater than the zero word" answers the bit 1.
-/
import Idealize.ShloMosaic.PureOps.Ideal.Laws
import proofs.«169590_j231928234285_2_alg».proof.Proof.AlgConsts

noncomputable section

namespace Cert.ReferenceIdeal.RefLayout

open Idealize.ShloMosaic

/-- The word `0xFF800000` denotes `-∞`. -/
theorem negInf_word : FloatOps.ofBits (F := Ideal) .f32 0xFF800000#32 = (⊥ : EReal) := by
  show Ideal.ofBits .f32 0xFF800000#32 = ⊥
  simp [Ideal.ofBits, Ideal.ieee]

/-- The integer word 0 as a float is the number 0. -/
theorem sitofp_zero_word : (FloatOps.sitofp (F := Ideal) .f32 (0#32 : BitVec 32) : EReal) = 0 := by
  show (((0#32 : BitVec 32).toInt : ℝ) : EReal) = 0
  simp

/-- The word 64.0 less the integer 0 as a float is the word 64.0. -/
theorem count_word :
    FloatOps.subf (F := Ideal) (FloatOps.ofBits (F := Ideal) .f32 0x42800000#32) (FloatOps.sitofp (F := Ideal) .f32 (0#32 : BitVec 32))
      = Ideal.ofBits .f32 0x42800000#32 := by
  show Ideal.ofBits .f32 0x42800000#32 - (FloatOps.sitofp (F := Ideal) .f32 (0#32 : BitVec 32) : EReal) = _
  rw [sitofp_zero_word, sub_zero]

/-- The word 64.0 is greater than the zero word: the comparison's bit is 1. -/
theorem count_pos :
    FloatOps.cmpf (F := Ideal) .ogt (Ideal.ofBits .f32 0x42800000#32 : Ideal .f32) (FloatOps.ofBits (F := Ideal) .f32 0x00000000#32) = 1#1 := by
  show Ideal.cmp .ogt (Ideal.ofBits .f32 0x42800000#32) (Ideal.ofBits .f32 0x00000000#32) = 1#1
  rw [Cert.CrossAttn.ofBits_64, Ideal.ofBits_zero_f32]
  unfold Ideal.cmp
  have h : (0 : EReal) < ((64 : ℝ) : EReal) := by exact_mod_cast (by norm_num : (0 : ℝ) < 64)
  simp [h]

end Cert.ReferenceIdeal.RefLayout

end
-- ==== Proof.RefValueSoftmax.lean ====
/-
  The reference's softmax stages at an entry: the scaled scores %15, the row maximum %16 … %18, the exponentials %22,
  their row sums %23, the weights %26, and the reversed rescaled weights %28 … %30 — composed, the entry
  (b, i, s) of %30 is (1 - softmax of row (b, i) at s) / 2047.
-/
import proofs.«169590_j231928234285_2_alg».proof.Proof.RefStages
import proofs.«169590_j231928234285_2_alg».proof.Proof.RefLayout
import proofs.«169590_j231928234285_2_alg».proof.Proof.RefWords
import proofs.«169590_j231928234285_2_alg».proof.Proof.Spec

open scoped BigOperators

noncomputable section

namespace Cert.ReferenceIdeal.RefStages

open Cert.ReferenceIdeal Idealize.ShloMosaic Idealize.ShloMosaic.ValueIdx
open Cert.ReferenceIdeal.Facts₀ Cert.ReferenceIdeal.Facts Cert.ReferenceIdeal.RefLayout

variable [Cert.ReferenceIdeal.Facts]

/-- %15 at any entry: the score divided by the square root of the word 64. -/
theorem v15_apply (s : TSc) (j : S8x2048x2048.Idx) :
    v15 s j = Ideal.div (s j) (Ideal.sqrt (Ideal.ofBits .f32 0x42800000#32)) := rfl

/-- %16 at row `(b, i)`: the fold of `max` from `-∞` over the row's scores. -/
theorem v16_apply (s : TSc) (b : Fin 8) (i : Fin 2048) :
    v16 s (ix2 b i) = Cert.CrossAttn.rowMax (fun k => s (ix3 b i k)) := by
  unfold v16 Cert.CrossAttn.rowMax
  refine (hostReduce_last_apply (FloatOps.maximumf (F := Ideal) (φ := .f32)) s _ reducesTo_S8x2048x2048_S8x2048_d2
    (by decide) h_S_ b i).trans ?_
  show (Finset.univ : Finset (Fin 2048)).fold max (FloatOps.ofBits (F := Ideal) .f32 0xFF800000#32) (fun k => s (ix3 b i k)) = _
  rw [negInf_word]

/-- %18 at any entry: the maximum with `-∞` changes nothing. -/
theorem v18_apply (m : TRow) (j : S8x2048.Idx) : v18 m j = m j := by
  show max (FloatOps.ofBits (F := Ideal) .f32 0xFF800000#32) (m j) = m j
  rw [negInf_word]
  exact max_eq_right bot_le

/-- %22 at `(b, i, k)`: the exponential of the score less its row's maximum. -/
theorem v22_apply (s : TSc) (m : TRow) (b : Fin 8) (i k : Fin 2048) :
    v22 s m (ix3 b i k) = Ideal.exp (s (ix3 b i k) - m (ix2 b i)) := by
  unfold v22
  show Ideal.exp (s (ix3 b i k) - broadcastInDim S8x2048x2048 ![0, 1, 2] bcast_S8x2048x1_S8x2048x2048_0_1_2
    (broadcastInDim S8x2048x1 ![0, 1] bcast_S8x2048_S8x2048x1_0_1 m) (ix3 b i k)) = _
  rw [bcast_col_apply bcast_S8x2048x1_S8x2048x2048_0_1_2 _ b i k, bcast_row_col_apply bcast_S8x2048_S8x2048x1_0_1 m b i 0]

/-- %23 at row `(b, i)`: the sum of the row's exponentials. -/
theorem v23_apply (e : TSc) (b : Fin 8) (i : Fin 2048) : v23 e (ix2 b i) = ∑ k : Fin 2048, e (ix3 b i k) := by
  unfold v23
  refine (hostReduceAdd_last_apply e _ reducesTo_S8x2048x2048_S8x2048_d2 (by decide) h_S_ b i).trans ?_
  show Ideal.ofBits .f32 0x00000000#32 + _ = _
  rw [Ideal.ofBits_zero_f32, zero_add]

/-- %26 at `(b, i, k)`: the exponential divided by its row's sum. -/
theorem v26_apply (e : TSc) (l : TRow) (b : Fin 8) (i k : Fin 2048) :
    v26 e l (ix3 b i k) = Ideal.div (e (ix3 b i k)) (l (ix2 b i)) := by
  unfold v26
  show Ideal.div (e (ix3 b i k)) (broadcastInDim S8x2048x2048 ![0, 1, 2] bcast_S8x2048x1_S8x2048x2048_0_1_2
    (broadcastInDim S8x2048x1 ![0, 1] bcast_S8x2048_S8x2048x1_0_1 l) (ix3 b i k)) = _
  rw [bcast_col_apply bcast_S8x2048x1_S8x2048x2048_0_1_2 _ b i k, bcast_row_col_apply bcast_S8x2048_S8x2048x1_0_1 l b i 0]

/-- %28 at any entry: the word 1.0 less the weight. -/
theorem v28_apply (w : TSc) (j : S8x2048x2048.Idx) : v28 w j = Ideal.ofBits .f32 0x3F800000#32 - w j := rfl

/-- %30 at any entry: the entry divided by the word 2047.0. -/
theorem v30_apply (w : TSc) (j : S8x2048x2048.Idx) : v30 w j = Ideal.div (w j) (Ideal.ofBits .f32 0x44FFE000#32) := rfl

/-- %22 of the scores at `(b, i, k)`: the exponential of the score less the row's maximum. -/
theorem expo_apply (S : TSc) (b : Fin 8) (i k : Fin 2048) :
    expo S (ix3 b i k) = Ideal.exp (S (ix3 b i k) - Cert.CrossAttn.rowMax (fun k' => S (ix3 b i k'))) := by
  unfold expo
  rw [v22_apply, v18_apply, v16_apply]

/-- %30 of the scores at `(b, i, s)`: one less the softmax weight of position `s` in row `(b, i)`, over 2047. -/
theorem weights_apply (S : TSc) (b : Fin 8) (i s : Fin 2048) :
    weights S (ix3 b i s)
      = Ideal.div (Ideal.ofBits .f32 0x3F800000#32 - Cert.CrossAttn.softmax (fun s' => S (ix3 b i s')) s)
          (Ideal.ofBits .f32 0x44FFE000#32) := by
  unfold weights Cert.CrossAttn.softmax
  rw [v30_apply, v28_apply, v26_apply, v23_apply, expo_apply]
  refine congrArg (fun z => Ideal.div (Ideal.ofBits .f32 0x3F800000#32 - Ideal.div _ z) _) ?_
  exact Finset.sum_congr rfl fun k _ => expo_apply S b i k

end Cert.ReferenceIdeal.RefStages

end
-- ==== Proof.RefValueAttn.lean ====
/-
  The reference's attention at an entry: the scaled scores %15 are the Spec's `rScores` of the projected rows, and
  %31 is the Spec's `rAttn` of the projected query, key and value rows of the batch.
-/
import proofs.«169590_j231928234285_2_alg».proof.Proof.RefValueProj
import proofs.«169590_j231928234285_2_alg».proof.Proof.RefValueSoftmax

open scoped BigOperators

noncomputable section

namespace Cert.ReferenceIdeal.RefStages

open Cert.ReferenceIdeal Idealize.ShloMosaic Idealize.ShloMosaic.ValueIdx

variable [Cert.ReferenceIdeal.Facts]

/-- %15 of the arguments at `(b, i, s)`: the dot product of query row `i` and key row `s` of batch `b`, over the
    square root of the word 64. -/
theorem scores_apply (a0 a1 : TAct) (a2 : TWgt) (a3 : TVec) (a4 : TWgt) (a5 : TVec) (b : Fin 8) (i s : Fin 2048) :
    scores a0 a1 a2 a3 a4 a5 (ix3 b i s)
      = Cert.CrossAttn.rScores (Cert.CrossAttn.proj a0 a2 a3 b) (Cert.CrossAttn.proj a1 a4 a5 b) i s := by
  unfold scores Cert.CrossAttn.rScores Cert.CrossAttn.dots
  rw [v15_apply, v12_apply]
  refine congrArg (fun z => Ideal.div z _) ?_
  exact Finset.sum_congr rfl fun c _ => by rw [proj_apply, proj_apply]

/-- %31 of the arguments at `(b, i, c)`: the Spec's reversed attention of row `i` of batch `b` at feature `c`. -/
theorem attn_apply (a0 a1 : TAct) (a2 : TWgt) (a3 : TVec) (a4 : TWgt) (a5 : TVec) (a6 : TWgt) (a7 : TVec)
    (b : Fin 8) (i : Fin 2048) (c : Fin 64) :
    attn a0 a1 a2 a3 a4 a5 a6 a7 (ix3 b i c)
      = Cert.CrossAttn.rAttn (Cert.CrossAttn.proj a0 a2 a3 b) (Cert.CrossAttn.proj a1 a4 a5 b) (Cert.CrossAttn.proj a1 a6 a7 b) i c := by
  unfold attn Cert.CrossAttn.rAttn
  rw [v31_apply]
  refine Finset.sum_congr rfl fun s _ => ?_
  rw [weights_apply, proj_apply]
  have hrow : (fun s' => scores a0 a1 a2 a3 a4 a5 (ix3 b i s'))
      = Cert.CrossAttn.rScores (Cert.CrossAttn.proj a0 a2 a3 b) (Cert.CrossAttn.proj a1 a4 a5 b) i :=
    funext fun s' => scores_apply a0 a1 a2 a3 a4 a5 b i s'
  rw [hrow]

end Cert.ReferenceIdeal.RefStages

end
-- ==== Proof.RefValueNorm.lean ====
/-
  The reference's normalisation tail, read at an entry (b, i, c).

  The mean of a row is the sum of its 64 features (a sum from the zero word, 0 + s = s) divided by the word 64. The
  outlined variance takes the mean again, the deviations, their squares, their sum, and divides by "the word 64 less
  the integer 0 as a float", which is the word 64 (x − 0 = x); its guard "count > 0" answers the bit 1, so the select
  keeps the quotient. The row is then centred, multiplied by the reciprocal square root of the variance plus the
  epsilon word, by gamma and shifted by beta, the two feature vectors read at the feature c. Every broadcast reads
  the operand at the coordinates it keeps. Put together this is `layerNorm` of the row x(b, i, ·).
-/
import proofs.«169590_j231928234285_2_alg».proof.Proof.RefStages
import proofs.«169590_j231928234285_2_alg».proof.Proof.RefLayout
import proofs.«169590_j231928234285_2_alg».proof.Proof.RefWords
import proofs.«169590_j231928234285_2_alg».proof.Proof.Spec

open scoped BigOperators

noncomputable section

namespace Cert.ReferenceIdeal.RefStages

open Cert.ReferenceIdeal Idealize.ShloMosaic Idealize.ShloMosaic.ValueIdx Cert.ReferenceIdeal.RefLayout
open Cert.ReferenceIdeal.Facts₀ Cert.ReferenceIdeal.Facts

variable [Cert.ReferenceIdeal.Facts]

/-! ### The stages at an entry -/

/-- The sum of a row's 64 features, kept as a column. -/
theorem v33_apply (x : TOut) (b : Fin 8) (i : Fin 2048) (u : Fin 1) :
    v33 x (ix3 b i u) = ∑ k : Fin 64, x (ix3 b i k) := by
  unfold v33
  refine (bcast_row_col_apply _ _ b i u).trans ?_
  refine (hostReduceAdd_last_apply x _ _ (by decide) _ b i).trans ?_
  rw [constant_apply, Ideal.ofBits_zero_f32, zero_add]

/-- A column divided by the word 64. -/
theorem v35_apply (s : TCol) (b : Fin 8) (i : Fin 2048) (u : Fin 1) :
    v35 s (ix3 b i u) = Ideal.div (s (ix3 b i u)) Cert.CrossAttn.w64 := rfl

/-- An entry less its row's column value. -/
theorem v38_apply (x : TOut) (mu : TCol) (b : Fin 8) (i : Fin 2048) (c : Fin 64) :
    v38 x mu (ix3 b i c) = x (ix3 b i c) - mu (ix3 b i (0 : Fin 1)) := by
  unfold v38
  refine (subf_apply _ _ _).trans ?_
  rw [bcast_col_apply]

/-- The outlined variance's first stages are the same functions. -/
theorem var_v1_apply (x : TOut) (b : Fin 8) (i : Fin 2048) (u : Fin 1) :
    var_v1 x (ix3 b i u) = ∑ k : Fin 64, x (ix3 b i k) := v33_apply x b i u

theorem var_v3_apply (s : TCol) (b : Fin 8) (i : Fin 2048) (u : Fin 1) :
    var_v3 s (ix3 b i u) = Ideal.div (s (ix3 b i u)) Cert.CrossAttn.w64 := rfl

theorem var_v5_apply (x : TOut) (mu : TCol) (b : Fin 8) (i : Fin 2048) (c : Fin 64) :
    var_v5 x mu (ix3 b i c) = x (ix3 b i c) - mu (ix3 b i (0 : Fin 1)) := v38_apply x mu b i c

/-- The square of an entry. -/
theorem var_v6_apply (d : TOut) (j : S8x2048x64.Idx) : var_v6 d j = d j * d j := rfl

/-- The sum of a row's 64 entries, kept as a column. -/
theorem var_v10_apply (d2 : TOut) (b : Fin 8) (i : Fin 2048) (u : Fin 1) :
    var_v10 d2 (ix3 b i u) = ∑ k : Fin 64, d2 (ix3 b i k) := v33_apply d2 b i u

/-- The count: the word 64 less the integer 0 as a float is the word 64. -/
theorem var_v8_c0 : var_v8 c0 ix0 = Cert.CrossAttn.w64 := count_word

/-- A column divided by a scalar. -/
theorem var_v12_apply (s : TCol) (n : TS) (b : Fin 8) (i : Fin 2048) (u : Fin 1) :
    var_v12 s n (ix3 b i u) = Ideal.div (s (ix3 b i u)) (n ix0) := by
  unfold var_v12
  refine (hostDivf_apply _ _ _).trans ?_
  rw [broadcastInDim_scalar_apply]

/-- The guard: the count is above zero. -/
theorem var_v13_c0 : var_v13 (var_v8 c0) ix0 = 1#1 := by
  show FloatOps.cmpf (F := Ideal) .ogt (var_v8 c0 ix0) (FloatOps.ofBits (F := Ideal) .f32 0x00000000#32) = 1#1
  rw [var_v8_c0]
  exact count_pos

/-- The guarded choice at an entry. -/
theorem v36_apply (p : TI1) (a : TCol) (b : Fin 8) (i : Fin 2048) (u : Fin 1) :
    v36 p a (ix3 b i u) = Scalar.select (p ix0) (a (ix3 b i u)) (Ideal.ofBits .f32 0x7FC00000#32) := by
  unfold v36
  refine (select_apply _ _ _ _).trans ?_
  rw [broadcastInDim_scalar_apply, broadcastInDim_scalar_apply]
  rfl

/-- The variance of row (b, i): the mean of the squared deviations from the row's mean. -/
theorem var_apply (x : TOut) (b : Fin 8) (i : Fin 2048) (u : Fin 1) :
    var x (ix3 b i u)
      = Cert.CrossAttn.mean64 (fun c' =>
          (x (ix3 b i c') - Cert.CrossAttn.mean64 (fun c => x (ix3 b i c)) Cert.CrossAttn.w64)
            * (x (ix3 b i c') - Cert.CrossAttn.mean64 (fun c => x (ix3 b i c)) Cert.CrossAttn.w64)) Cert.CrossAttn.w64 := by
  unfold var
  rw [v36_apply, var_v13_c0, select_one, var_v12_apply, var_v8_c0, var_v10_apply]
  unfold Cert.CrossAttn.mean64
  refine congrArg (fun t => Ideal.div t Cert.CrossAttn.w64) (Finset.sum_congr rfl fun k _ => ?_)
  rw [var_v6_apply, var_v5_apply, var_v3_apply, var_v1_apply]

/-- The reciprocal square root of a column plus the epsilon word. -/
theorem v41_apply (va : TCol) (b : Fin 8) (i : Fin 2048) (u : Fin 1) :
    v41 va (ix3 b i u) = Ideal.rsqrt (va (ix3 b i u) + Cert.CrossAttn.wEps) := rfl

/-- An entry times its row's column value. -/
theorem v43_apply (d : TOut) (r : TCol) (b : Fin 8) (i : Fin 2048) (c : Fin 64) :
    v43 d r (ix3 b i c) = d (ix3 b i c) * r (ix3 b i (0 : Fin 1)) := by
  unfold v43
  refine (mulf_apply _ _ _).trans ?_
  rw [bcast_col_apply]

/-- An entry times the feature vector at its feature. -/
theorem v46_apply (y : TOut) (g : TVec) (b : Fin 8) (i : Fin 2048) (c : Fin 64) :
    v46 y g (ix3 b i c) = y (ix3 b i c) * g (ix1 c) := by
  unfold v46
  refine (mulf_apply _ _ _).trans ?_
  rw [bcast_vec_apply]

/-- An entry plus the feature vector at its feature. -/
theorem v49_apply (y : TOut) (be : TVec) (b : Fin 8) (i : Fin 2048) (c : Fin 64) :
    v49 y be (ix3 b i c) = y (ix3 b i c) + be (ix1 c) := by
  unfold v49
  refine (addf_apply _ _ _).trans ?_
  rw [bcast_vec_apply]

/-! ### The tail -/

/-- The reference's normalisation of `x` at (b, i, c) is the layer normalisation of the row x(b, i, ·) at c. -/
theorem norm_apply (x : TOut) (g be : TVec) (b : Fin 8) (i : Fin 2048) (c : Fin 64) :
    norm x g be (ix3 b i c)
      = Cert.CrossAttn.layerNorm (fun c' => x (ix3 b i c')) Cert.CrossAttn.w64 Cert.CrossAttn.wEps
          (g (ix1 c)) (be (ix1 c)) c := by
  unfold norm
  rw [v49_apply, v46_apply, v43_apply, v38_apply, v41_apply, var_apply, v35_apply, v33_apply]
  rfl

end Cert.ReferenceIdeal.RefStages

end
-- ==== Proof.RefValue.lean ====
/-
  The reference's composed result is the Spec's `refOut`, entry by entry: at (b, i, c) the normalisation tail is the
  layer normalisation of row (b, i) of %31, and that row is the Spec's reversed attention of the projected rows.
-/
import proofs.«169590_j231928234285_2_alg».proof.Proof.RefValueAttn
import proofs.«169590_j231928234285_2_alg».proof.Proof.RefValueNorm

noncomputable section

namespace Cert.ReferenceIdeal.RefStages

open Cert.ReferenceIdeal Idealize.ShloMosaic Idealize.ShloMosaic.ValueIdx

variable [Cert.ReferenceIdeal.Facts]

/-- %49 of the ten arguments is `refOut` of them. -/
theorem refTerm_eq_refOut (a0 a1 : TAct) (a2 : TWgt) (a3 : TVec) (a4 : TWgt) (a5 : TVec) (a6 : TWgt) (a7 a8 a9 : TVec) :
    refTerm a0 a1 a2 a3 a4 a5 a6 a7 a8 a9 = Cert.CrossAttn.refOut a0 a1 a2 a3 a4 a5 a6 a7 a8 a9 := by
  funext j
  obtain ⟨b, i, c, rfl⟩ : ∃ (b : Fin 8) (i : Fin 2048) (c : Fin 64), j = ix3 b i c := ⟨j 0, j 1, j 2, eq_ix3 j⟩
  unfold refTerm
  rw [norm_apply]
  show _ = Cert.CrossAttn.layerNorm (Cert.CrossAttn.rAttn (Cert.CrossAttn.proj a0 a2 a3 b) (Cert.CrossAttn.proj a1 a4 a5 b)
    (Cert.CrossAttn.proj a1 a6 a7 b) i) Cert.CrossAttn.w64 Cert.CrossAttn.wEps (a8 (ix1 c)) (a9 (ix1 c)) c
  have hrow : (fun c' => attn a0 a1 a2 a3 a4 a5 a6 a7 (ix3 b i c'))
      = Cert.CrossAttn.rAttn (Cert.CrossAttn.proj a0 a2 a3 b) (Cert.CrossAttn.proj a1 a4 a5 b) (Cert.CrossAttn.proj a1 a6 a7 b) i :=
    funext fun c' => attn_apply a0 a1 a2 a3 a4 a5 a6 a7 b i c'
  rw [hrow]

end Cert.ReferenceIdeal.RefStages

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.AlgSoftmax.lean ====
/-
  The softmax weights of a row of real scores are real numbers.

  The largest of 2048 real scores is a real number ρ; each exp (sc s - ρ) is then the exponential of a real, a
  positive real; the sum of 2048 positive reals is a positive real, in particular not zero, so dividing by it is
  multiplying by its reciprocal and the quotient is a real number.
-/
import proofs.«169590_j231928234285_2_alg».proof.Proof.Spec
import proofs.«169590_j231928234285_2_alg».proof.Proof.LibERealSums

open scoped BigOperators

noncomputable section

namespace Cert.CrossAttn

open Idealize.ShloMosaic

/-- The largest of 2048 real scores is a real number. -/
theorem rowMax_coe (f : Fin 2048 → ℝ) : ∃ ρ : ℝ, rowMax (fun s => ((f s : ℝ) : EReal)) = (ρ : EReal) :=
  Cert.Attn.fold_max_coe_exists Finset.univ Finset.univ_nonempty f

/-- The softmax weights of a row of real scores are real numbers. -/
theorem softmax_coe (f : Fin 2048 → ℝ) :
    ∃ w : Fin 2048 → ℝ, ∀ s, softmax (fun s => ((f s : ℝ) : EReal)) s = ((w s : ℝ) : EReal) := by
  obtain ⟨ρ, hρ⟩ := rowMax_coe f
  refine ⟨fun s => Real.exp (f s - ρ) * (1 / ∑ s', Real.exp (f s' - ρ)), fun s => ?_⟩
  have hexp : ∀ s' : Fin 2048,
      Ideal.exp (((f s' : ℝ) : EReal) - (ρ : EReal)) = ((Real.exp (f s' - ρ) : ℝ) : EReal) := fun s' => by
    rw [← EReal.coe_sub, Ideal.exp_coe]
  have hpos : (∑ s', Real.exp (f s' - ρ)) ≠ 0 :=
    (Finset.sum_pos (fun s' _ => Real.exp_pos _) Finset.univ_nonempty).ne'
  unfold softmax
  rw [hρ]
  simp only [hexp]
  rw [← Cert.Attn.coe_sum_univ, Ideal.div_coe hpos, ← EReal.coe_mul]

end Cert.CrossAttn

end
-- ==== Proof.Algebra.lean ====
/-
  The two spellings of the cross-attention block agree when every input entry is a real number.

  The layer-norm tail is the same function of the attention row on both sides, so it is enough that the two
  "reversed attention" rows agree. With real inputs every projection entry is a real number (a finite sum of products
  of reals plus a real), so every dot product is real. Multiplying by the word 0.125 and dividing by sqrt 64 = 8 are
  the same operation, so both sides take the softmax of the same row of real scores, whose weights w(s) are real
  numbers. For real w(s), v(s) the identity
      ∑ s, ((1 - w s) / 2047) · v s = ((∑ s, v s) - ∑ s, w s · v s) · (1/2047)
  holds in ℝ (it can fail in [−∞, +∞], where distributivity and cancellation fail), and the inclusion of ℝ carries
  it to the extended reals.
-/
import proofs.«169590_j231928234285_2_alg».proof.Proof.Spec
import proofs.«169590_j231928234285_2_alg».proof.Proof.LibERealSums
import proofs.«169590_j231928234285_2_alg».proof.Proof.AlgConsts
import proofs.«169590_j231928234285_2_alg».proof.Proof.AlgSoftmax

open scoped BigOperators

noncomputable section

namespace Cert.CrossAttn

open Idealize.ShloMosaic Idealize.ShloMosaic.ValueIdx Cert.Attn

/-- Multiplying by the word 0.125 is dividing by the square root of the word 64: both are the product with the
    real 1/8 (at the infinities too). -/
theorem kScores_eq_rScores (q k : Fin 2048 → Fin 64 → EReal) (i : Fin 2048) : kScores q k i = rScores q k i := by
  funext s
  unfold kScores rScores
  rw [ofBits_eighth, sqrt_ofBits_64, Ideal.div_coe (by norm_num : (8 : ℝ) ≠ 0)]

/-- In ℝ: combining the `v s` with the weights `(1 - w s) · (1/2047)` is `(∑ v - ∑ w · v) · (1/2047)`. -/
theorem real_attn {ι : Type} [Fintype ι] (w v : ι → ℝ) :
    ((∑ s, v s) - ∑ s, w s * v s) * (1 / 2047) = ∑ s, (1 - w s) * (1 / 2047) * v s := by
  rw [← Finset.sum_sub_distrib, Finset.sum_mul]
  exact Finset.sum_congr rfl fun s _ => by ring

/-- The same identity between the two spellings, for real weights and real values included in [−∞, +∞]. -/
theorem attn_row (w v : Fin 2048 → ℝ) :
    ((∑ s, ((v s : ℝ) : EReal)) - ∑ s, ((w s : ℝ) : EReal) * ((v s : ℝ) : EReal)) * ((1 / 2047 : ℝ) : EReal)
      = ∑ s, Ideal.div (Ideal.ofBits .f32 0x3F800000#32 - ((w s : ℝ) : EReal)) (Ideal.ofBits .f32 0x44FFE000#32)
          * ((v s : ℝ) : EReal) := by
  rw [← coe_sum_univ, sum_coe_mul_coe, ← EReal.coe_sub, ← EReal.coe_mul, real_attn, coe_sum_univ]
  refine Finset.sum_congr rfl fun s _ => ?_
  rw [ofBits_one, ofBits_2047, Ideal.div_coe (by norm_num : (2047 : ℝ) ≠ 0), ← EReal.coe_sub, ← EReal.coe_mul,
    ← EReal.coe_mul]

/-- The two reversed-attention rows agree when the queries, keys and values are real numbers. -/
theorem kAttn_eq_rAttn (q k v : Fin 2048 → Fin 64 → EReal)
    (hq : ∀ i c, ∃ r : ℝ, q i c = (r : EReal)) (hk : ∀ i c, ∃ r : ℝ, k i c = (r : EReal))
    (hv : ∀ i c, ∃ r : ℝ, v i c = (r : EReal)) (i : Fin 2048) (c : Fin 64) :
    kAttn q k v i c = rAttn q k v i c := by
  choose qr hqr using hq
  choose kr hkr using hk
  choose vr hvr using hv
  -- the common row of scores is a row of real numbers
  obtain ⟨f, hf⟩ : ∃ f : Fin 2048 → ℝ, rScores q k i = fun s => ((f s : ℝ) : EReal) := by
    refine ⟨fun s => (∑ c, qr i c * kr s c) * (1 / 8), funext fun s => ?_⟩
    unfold rScores dots
    simp only [hqr, hkr]
    rw [sum_coe_mul_coe, sqrt_ofBits_64, Ideal.div_coe (by norm_num : (8 : ℝ) ≠ 0), ← EReal.coe_mul]
  -- so its softmax weights are real numbers
  obtain ⟨w, hw⟩ := softmax_coe f
  unfold kAttn rAttn
  rw [kScores_eq_rScores, hf]
  simp only [hw, hvr]
  exact attn_row w (fun s => vr s c)

/-- A projection of real activations by a real matrix plus a real bias is a real number. -/
theorem proj_coe (x : Act) (w : Wgt) (bias : Vec64) (hx : ∀ i, ∃ r : ℝ, x i = (r : EReal))
    (hw : ∀ i, ∃ r : ℝ, w i = (r : EReal)) (hb : ∀ i, ∃ r : ℝ, bias i = (r : EReal))
    (b : Fin 8) (s : Fin 2048) (c : Fin 64) : ∃ r : ℝ, proj x w bias b s c = (r : EReal) := by
  choose xr hxr using hx
  choose wr hwr using hw
  choose br hbr using hb
  refine ⟨(∑ d, xr (ix3 b s d) * wr (ix2 d c)) + br (ix1 c), ?_⟩
  unfold proj
  simp only [hxr, hwr, hbr]
  rw [sum_coe_mul_coe, ← EReal.coe_add]

/-- Layer normalisation depends only on the row it normalises. -/
theorem layerNorm_congr {a a' : Fin 64 → EReal} (h : a = a') (n eps g be : EReal) (c : Fin 64) :
    layerNorm a n eps g be c = layerNorm a' n eps g be c := by rw [h]

/-- The kernel's spelling and the reference's spelling of the block agree on real inputs. -/
theorem kernelOut_eq_refOut (x1 x2 : Act) (wq : Wgt) (bq : Vec64) (wk : Wgt) (bk : Vec64) (wv : Wgt) (bv g be : Vec64)
    (hx1 : ∀ i, ∃ r : ℝ, x1 i = (r : EReal)) (hx2 : ∀ i, ∃ r : ℝ, x2 i = (r : EReal))
    (hwq : ∀ i, ∃ r : ℝ, wq i = (r : EReal)) (hbq : ∀ i, ∃ r : ℝ, bq i = (r : EReal))
    (hwk : ∀ i, ∃ r : ℝ, wk i = (r : EReal)) (hbk : ∀ i, ∃ r : ℝ, bk i = (r : EReal))
    (hwv : ∀ i, ∃ r : ℝ, wv i = (r : EReal)) (hbv : ∀ i, ∃ r : ℝ, bv i = (r : EReal)) :
    kernelOut x1 x2 wq bq wk bk wv bv g be = refOut x1 x2 wq bq wk bk wv bv g be := by
  funext j
  exact layerNorm_congr (funext fun c => kAttn_eq_rAttn _ _ _
    (fun i c => proj_coe x1 wq bq hx1 hwq hbq _ i c) (fun i c => proj_coe x2 wk bk hx2 hwk hbk _ i c)
    (fun i c => proj_coe x2 wv bv hx2 hwv hbv _ i c) _ c) _ _ _ _ _

end Cert.CrossAttn

end
-- ==== Proof.Finite.lean ====
/-
  The precondition "every entry of every argument array is finite" gives that every entry is a real number.

  The printed predicate is the conjunction, over the ten arrays, of "all entries satisfy |x| < +∞", where |x| is
  max(x, −x), +∞ is the float word 0x7F800000 broadcast to the array's shape, and "all" is a reduction by `and`
  from the bit 1. A conjunction of bits is 1 only when both are; a reduction by `and` that is 1 met a 1 at every
  index; and an extended real with max(x, −x) < ⊤ is neither ⊥ nor ⊤, so it is the image of a real number.
-/
import Idealize.ShloMosaic.Lib.ReduceAll
import Idealize.ShloMosaic.Lib.Affine
import Idealize.ShloMosaic.Lib.ValueIdx
import proofs.«169590_j231928234285_2_alg».proof.Pre_finite_inputs
import proofs.«169590_j231928234285_2_alg».proof.Proof.LibFiniteEntry

namespace Cert.CrossAttn

open Idealize.ShloMosaic Idealize.ShloMosaic.ValueIdx Cert.Pre_finite_inputs

/-- The rank-0 shape has one index. -/
instance : Subsingleton S_.Idx := ⟨fun a b => funext fun d => d.elim0⟩

/-- One array: if "all entries have |x| below the word +∞" holds, every entry is a real number. -/
theorem real_of_all_finite {s : Shape} {axes : List (Fin s.rank)} (hb : S_.BroadcastsInDim s (![] : Fin 0 → Fin s.rank))
    (hr : s.ReducesTo axes S_) (hu : 0 < S_.numel) (a : FVec Ideal s .f32) (init : IVec S_ 1) (j : S_.Idx)
    (e : Host.reduce IntOp.andi
      (cmpf .olt (Host.absf a) (broadcastInDim s ![] hb (constant (F := Ideal) S_ .f32 0x7F800000#32))) init hr hu j
        = 1#1) (i : s.Idx) : ∃ r : ℝ, a i = (r : EReal) :=
  Ideal.real_of_abs_lt_inf (a i) (Host.reduce_andi_all _ init hr hu j e i)

/-- The ten arrays: where the printed predicate is the bit 1, every entry of every array is a real number. -/
theorem real_of_finite_inputs [Cert.Pre_finite_inputs.Facts]
    (a0 a1 : FVec Ideal S8x2048x768 .f32) (a2 : FVec Ideal S768x64 .f32) (a3 : FVec Ideal S64 .f32)
    (a4 : FVec Ideal S768x64 .f32) (a5 : FVec Ideal S64 .f32) (a6 : FVec Ideal S768x64 .f32)
    (a7 a8 a9 : FVec Ideal S64 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) := by
  have h48 := congrFun h ix0
  dsimp only [fn, fn_part1, fn_part2] at h48
  obtain ⟨h43, h9⟩ := IntOp.andi_eq_one.1 h48
  obtain ⟨h38, h8⟩ := IntOp.andi_eq_one.1 h43
  obtain ⟨h33, h7⟩ := IntOp.andi_eq_one.1 h38
  obtain ⟨h28, h6⟩ := IntOp.andi_eq_one.1 h33
  obtain ⟨h23, h5⟩ := IntOp.andi_eq_one.1 h28
  obtain ⟨h18, h4⟩ := IntOp.andi_eq_one.1 h23
  obtain ⟨h13, h3⟩ := IntOp.andi_eq_one.1 h18
  obtain ⟨h08, h2⟩ := IntOp.andi_eq_one.1 h13
  obtain ⟨h0, h1⟩ := IntOp.andi_eq_one.1 h08
  exact ⟨real_of_all_finite _ _ _ a0 _ _ h0, real_of_all_finite _ _ _ a1 _ _ h1, real_of_all_finite _ _ _ a2 _ _ h2,
    real_of_all_finite _ _ _ a3 _ _ h3, real_of_all_finite _ _ _ a4 _ _ h4, real_of_all_finite _ _ _ a5 _ _ h5,
    real_of_all_finite _ _ _ a6 _ _ h6, real_of_all_finite _ _ _ a7 _ _ h7, real_of_all_finite _ _ _ a8 _ _ h8,
    real_of_all_finite _ _ _ a9 _ _ h9⟩

end Cert.CrossAttn
-- ==== Proof.lean ====
/-
  The certificate of the fused cross-attention block against its reference.

  Both programs compute, for every batch b, query row i and feature c, the layer-normalised "reversed" attention
  of the row: the queries, keys and values are affine images of the tokens of x_1 and x_2; the scores are the scaled
  dot products; the weights the softmax of a row of scores; the attention the v-rows combined with (1 - w) / 2047; and
  the row is normalised over its 64 features and scaled and shifted by gamma and beta (module Spec).

  The kernel computes the attention as (∑ v - ∑ w·v) · (1/2047), with the scores scaled by 0.125, tile by tile over a
  grid of (batch, query chunk), keeping a batch's keys, values and value sums in scratch (modules KPieces … KValue:
  its result array is `kernelOut` of the arguments). The reference computes ∑ ((1 - w) / 2047) · v with the scores
  divided by sqrt 64 (modules RefOps, RefRun, RefStages, RefValue…: its result is `refOut` of the arguments). On finite
  inputs every intermediate value is a real number, the two scalings of the scores are the same number, and the two
  arrangements of the attention are equal by distributivity in ℝ (modules AlgConsts, AlgSoftmax, Algebra); the
  precondition gives the finiteness (module Finite). The three frames are the generated frame runs and the reference's
  run with its result dropped; the one ledger entry says the named reciprocal is 1/2047.
-/
import proofs.«169590_j231928234285_2_alg».proof.Defs
import proofs.«169590_j231928234285_2_alg».proof.Proof.Gen.Kernel
import proofs.«169590_j231928234285_2_alg».proof.Proof.Gen.Kernel.Frame
import proofs.«169590_j231928234285_2_alg».proof.Proof.Gen.KernelIdeal
import proofs.«169590_j231928234285_2_alg».proof.Proof.Gen.KernelIdeal.Frame
import proofs.«169590_j231928234285_2_alg».proof.Proof.Gen.KernelIdeal.Value
import proofs.«169590_j231928234285_2_alg».proof.Proof.Gen.ReferenceIdeal
import proofs.«169590_j231928234285_2_alg».proof.Proof.Gen.Pre_finite_inputs
import proofs.«169590_j231928234285_2_alg».proof.Proof.KValue
import proofs.«169590_j231928234285_2_alg».proof.Proof.RefRun
import proofs.«169590_j231928234285_2_alg».proof.Proof.RefValue
import proofs.«169590_j231928234285_2_alg».proof.Proof.Algebra
import proofs.«169590_j231928234285_2_alg».proof.Proof.Finite
import Idealize.ShloMosaic.PureOps.IdealRules
import Idealize.ShloMosaic.Adequacy
import Idealize.ShloMosaic.Init

noncomputable section

namespace Cert.Proof

open Idealize.ShloMosaic Idealize.SL.Sem

/-- The word-level kernel's frame: the generated frame run. -/
theorem frame_kernel : Cert.frame_Kernel := fun m ρ _ => Cert.Kernel.Gen.frame m ρ

/-- The idealized kernel's frame: the generated frame run. -/
theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RefRun.run m ρ)

/-- The ledger's one entry: the named reciprocal denotes 1/2047 at the extended reals. -/
theorem preserves : Cert.preserves_Kernel_KernelIdeal :=
  IdealRules.named_const.statement Cert.KernelIdeal.κ "inv_2047" .f32 0x3A001002#32 ((1 / 2047 : ℝ) : EReal) rfl

/-- From memories agreeing on the arguments the kernel's result array ends at `kernelOut` and the reference's at
    `refOut` of the same arrays, and on finite arrays these are one function. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9⟩ := hagree c
  rw [e0, e1, e2, e3, e4, e5, e6, e7, e8, e9, Cert.ReferenceIdeal.RefStages.refTerm_eq_refOut]
  obtain ⟨h0, h1, h2, h3, h4, h5, h6, h7, -, -⟩ := Cert.CrossAttn.real_of_finite_inputs _ _ _ _ _ _ _ _ _ _ (hpre c)
  exact (Cert.CrossAttn.kernelOut_eq_refOut _ _ _ _ _ _ _ _ _ _ h0 h1 h2 h3 h4 h5 h6 h7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
